-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v145)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v145) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v176) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x256 : Shape := ⟨2, ![100000, 256]⟩
abbrev S5x2x200000 : Shape := ⟨3, ![5, 2, 200000]⟩
abbrev S5x256x256 : Shape := ⟨3, ![5, 256, 256]⟩
abbrev S256x256 : Shape := ⟨2, ![256, 256]⟩
abbrev S256 : Shape := ⟨1, ![256]⟩
abbrev S1 : Shape := ⟨1, ![1]⟩
abbrev S_ : Shape := ⟨0, ![]⟩

class Facts : Prop where
  bcast_S_S100000x256 : S_.BroadcastsInDim S100000x256 (![] : Fin 0 → Fin S100000x256.rank)
  reducesTo_S100000x256_S_d0_1 : S100000x256.ReducesTo [0, 1] S_
  h_S_ : 0 < S_.numel
  bcast_S_S5x256x256 : S_.BroadcastsInDim S5x256x256 (![] : Fin 0 → Fin S5x256x256.rank)
  reducesTo_S5x256x256_S_d0_1_2 : S5x256x256.ReducesTo [0, 1, 2] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_
  bcast_S_S1 : S_.BroadcastsInDim S1 (![] : Fin 0 → Fin S1.rank)
  reducesTo_S1_S_d0 : S1.ReducesTo [0] S_

variable [Facts]

def fn_part1 {F : FTy → Type} [FloatOps F] (main_arg5 : FVec F S256 .f32) (main_arg6 : FVec F S256 .f32) (main_arg7 : FVec F S1 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256 .f32 := Host.absf main_arg5
  let main_cst_6 : FVec F S_ .f32 := constant S_ .f32 0x7F800000#32
  let main_v20 : FVec F S256 .f32 := broadcastInDim S256 ![] bcast_S_S256 main_cst_6
  let main_v21 : IVec S256 1 := cmpf .olt main_v19 main_v20
  let main_c_7 : IVec S_ 1 := constantI S_ 1 1#1
  let main_v22 : IVec S_ 1 := (fun x v => Host.reduce IntOp.andi x v reducesTo_S256_S_d0 h_S_) main_v21 main_c_7
  let main_v23 : IVec S_ 1 := andi main_v18 main_v22
  let main_v24 : FVec F S256 .f32 := Host.absf main_arg6
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S1 .f32 := Host.absf main_arg7
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  main_v33

def fn {F : FTy → Type} [FloatOps F] (main_arg0 : FVec F S100000x256 .f32) (main_arg1 : IVec S5x2x200000 32) (main_arg2 : FVec F S5x256x256 .f32) (main_arg3 : FVec F S256x256 .f32) (main_arg4 : FVec F S256 .f32) (main_arg5 : FVec F S256 .f32) (main_arg6 : FVec F S256 .f32) (main_arg7 : FVec F S1 .f32) : IVec S_ 1 :=
  let main_v0 : FVec F S100000x256 .f32 := Host.absf main_arg0
  let main_cst : FVec F S_ .f32 := constant S_ .f32 0x7F800000#32
  let main_v1 : FVec F S100000x256 .f32 := broadcastInDim S100000x256 ![] bcast_S_S100000x256 main_cst
  let main_v2 : IVec S100000x256 1 := cmpf .olt main_v0 main_v1
  let main_c : IVec S_ 1 := constantI S_ 1 1#1
  let main_v3 : IVec S_ 1 := (fun x v => Host.reduce IntOp.andi x v reducesTo_S100000x256_S_d0_1 h_S_) main_v2 main_c
  let main_v4 : FVec F S5x256x256 .f32 := Host.absf main_arg2
  let main_cst_0 : FVec F S_ .f32 := constant S_ .f32 0x7F800000#32
  let main_v5 : FVec F S5x256x256 .f32 := broadcastInDim S5x256x256 ![] bcast_S_S5x256x256 main_cst_0
  let main_v6 : IVec S5x256x256 1 := cmpf .olt main_v4 main_v5
  let main_c_1 : IVec S_ 1 := constantI S_ 1 1#1
  let main_v7 : IVec S_ 1 := (fun x v => Host.reduce IntOp.andi x v reducesTo_S5x256x256_S_d0_1_2 h_S_) main_v6 main_c_1
  let main_v8 : IVec S_ 1 := andi main_v3 main_v7
  let main_v9 : FVec F S256x256 .f32 := Host.absf main_arg3
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg4
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg5 main_arg6 main_arg7 main_v13 main_v16
-- ==== Kernel.lean ====
abbrev S100000x256 : Shape := ⟨2, ![100000, 256]⟩
abbrev S5x2x200000 : Shape := ⟨3, ![5, 2, 200000]⟩
abbrev S5x256x256 : Shape := ⟨3, ![5, 256, 256]⟩
abbrev S256x256 : Shape := ⟨2, ![256, 256]⟩
abbrev S256 : Shape := ⟨1, ![256]⟩
abbrev S1 : Shape := ⟨1, ![1]⟩
abbrev S_ : Shape := ⟨0, ![]⟩
abbrev S1x1x200000 : Shape := ⟨3, ![1, 1, 200000]⟩
abbrev S200000 : Shape := ⟨1, ![200000]⟩
abbrev S200000x1 : Shape := ⟨2, ![200000, 1]⟩
abbrev S200000x256 : Shape := ⟨2, ![200000, 256]⟩
abbrev S1x256x256 : Shape := ⟨3, ![1, 256, 256]⟩
abbrev S4000x256 : Shape := ⟨2, ![4000, 256]⟩
abbrev S100000 : Shape := ⟨1, ![100000]⟩
abbrev S100000x1 : Shape := ⟨2, ![100000, 1]⟩
abbrev S1x256 : Shape := ⟨2, ![1, 256]⟩
abbrev S1x1 : Shape := ⟨2, ![1, 1]⟩
abbrev S2000x256 : Shape := ⟨2, ![2000, 256]⟩
abbrev S2000 : Shape := ⟨1, ![2000]⟩
abbrev S2000x1 : Shape := ⟨2, ![2000, 1]⟩

abbrev nBuf : Space → Nat
  | .hbm => 200
  | .vmem => 36
  | .smem => 0
  | _ => 0

abbrev hbmTy0_0 (i : Nat) : BufTy := match i % 128 with
  | 0 => ⟨S100000x256, .f32⟩
  | 1 => ⟨S5x2x200000, .i32⟩
  | 2 => ⟨S5x256x256, .f32⟩
  | 3 => ⟨S256x256, .f32⟩
  | 4 => ⟨S256, .f32⟩
  | 5 => ⟨S256, .f32⟩
  | 6 => ⟨S256, .f32⟩
  | 7 => ⟨S1, .f32⟩
  | 8 => ⟨S_, .f32⟩
  | 9 => ⟨S100000x256, .f32⟩
  | 10 => ⟨S1x1x200000, .i32⟩
  | 11 => ⟨S200000, .i32⟩
  | 12 => ⟨S1x1x200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x256, .f32⟩
  | 23 => ⟨S1x256x256, .f32⟩
  | 24 => ⟨S256x256, .f32⟩
  | 25 => ⟨S200000x256, .f32⟩
  | 26 => ⟨S_, .f32⟩
  | 27 => ⟨S200000, .f32⟩
  | 28 => ⟨S_, .f32⟩
  | 29 => ⟨S100000, .f32⟩
  | 30 => ⟨S200000x1, .i32⟩
  | 31 => ⟨S100000, .f32⟩
  | 32 => ⟨S_, .f32⟩
  | 33 => ⟨S100000x256, .f32⟩
  | 34 => ⟨S200000x1, .i32⟩
  | 35 => ⟨S100000x256, .f32⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x256, .f32⟩
  | 45 => ⟨S100000x256, .f32⟩
  | 46 => ⟨S100000x256, .f32⟩
  | 47 => ⟨S1x1x200000, .i32⟩
  | 48 => ⟨S200000, .i32⟩
  | 49 => ⟨S1x1x200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x256, .f32⟩
  | 60 => ⟨S1x256x256, .f32⟩
  | 61 => ⟨S256x256, .f32⟩
  | 62 => ⟨S200000x256, .f32⟩
  | 63 => ⟨S_, .f32⟩
  | 64 => ⟨S200000, .f32⟩
  | 65 => ⟨S_, .f32⟩
  | 66 => ⟨S100000, .f32⟩
  | 67 => ⟨S200000x1, .i32⟩
  | 68 => ⟨S100000, .f32⟩
  | 69 => ⟨S_, .f32⟩
  | 70 => ⟨S100000x256, .f32⟩
  | 71 => ⟨S200000x1, .i32⟩
  | 72 => ⟨S100000x256, .f32⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x256, .f32⟩
  | 82 => ⟨S100000x256, .f32⟩
  | 83 => ⟨S100000x256, .f32⟩
  | 84 => ⟨S1x1x200000, .i32⟩
  | 85 => ⟨S200000, .i32⟩
  | 86 => ⟨S1x1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000x256, .f32⟩
  | 97 => ⟨S1x256x256, .f32⟩
  | 98 => ⟨S256x256, .f32⟩
  | 99 => ⟨S200000x256, .f32⟩
  | 100 => ⟨S_, .f32⟩
  | 101 => ⟨S200000, .f32⟩
  | 102 => ⟨S_, .f32⟩
  | 103 => ⟨S100000, .f32⟩
  | 104 => ⟨S200000x1, .i32⟩
  | 105 => ⟨S100000, .f32⟩
  | 106 => ⟨S_, .f32⟩
  | 107 => ⟨S100000x256, .f32⟩
  | 108 => ⟨S200000x1, .i32⟩
  | 109 => ⟨S100000x256, .f32⟩
  | 110 => ⟨S_, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x256, .f32⟩
  | 119 => ⟨S100000x256, .f32⟩
  | 120 => ⟨S100000x256, .f32⟩
  | 121 => ⟨S1x1x200000, .i32⟩
  | 122 => ⟨S200000, .i32⟩
  | 123 => ⟨S1x1x200000, .i32⟩
  | 124 => ⟨S200000, .i32⟩
  | 125 => ⟨S_, .i32⟩
  | 126 => ⟨S200000, .i32⟩
  | 127 => ⟨S200000, .i1⟩
  | _ => ⟨S100000x256, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x256, .f32⟩
  | 6 => ⟨S1x256x256, .f32⟩
  | 7 => ⟨S256x256, .f32⟩
  | 8 => ⟨S200000x256, .f32⟩
  | 9 => ⟨S_, .f32⟩
  | 10 => ⟨S200000, .f32⟩
  | 11 => ⟨S_, .f32⟩
  | 12 => ⟨S100000, .f32⟩
  | 13 => ⟨S200000x1, .i32⟩
  | 14 => ⟨S100000, .f32⟩
  | 15 => ⟨S_, .f32⟩
  | 16 => ⟨S100000x256, .f32⟩
  | 17 => ⟨S200000x1, .i32⟩
  | 18 => ⟨S100000x256, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x256, .f32⟩
  | 28 => ⟨S100000x256, .f32⟩
  | 29 => ⟨S100000x256, .f32⟩
  | 30 => ⟨S1x1x200000, .i32⟩
  | 31 => ⟨S200000, .i32⟩
  | 32 => ⟨S1x1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x256, .f32⟩
  | 43 => ⟨S1x256x256, .f32⟩
  | 44 => ⟨S256x256, .f32⟩
  | 45 => ⟨S200000x256, .f32⟩
  | 46 => ⟨S_, .f32⟩
  | 47 => ⟨S200000, .f32⟩
  | 48 => ⟨S_, .f32⟩
  | 49 => ⟨S100000, .f32⟩
  | 50 => ⟨S200000x1, .i32⟩
  | 51 => ⟨S100000, .f32⟩
  | 52 => ⟨S_, .f32⟩
  | 53 => ⟨S100000x256, .f32⟩
  | 54 => ⟨S200000x1, .i32⟩
  | 55 => ⟨S100000x256, .f32⟩
  | 56 => ⟨S_, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x256, .f32⟩
  | 65 => ⟨S100000x256, .f32⟩
  | 66 => ⟨S100000x256, .f32⟩
  | 67 => ⟨S1x256, .f32⟩
  | 68 => ⟨S1x256, .f32⟩
  | 69 => ⟨S1x256, .f32⟩
  | 70 => ⟨S1x1, .f32⟩
  | 71 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | .local _ .vmem, ⟨0, _⟩ => ⟨S4000x256, .f32⟩
  | .local _ .vmem, ⟨1, _⟩ => ⟨S4000x256, .f32⟩
  | .local _ .vmem, ⟨2, _⟩ => ⟨S256x256, .f32⟩
  | .local _ .vmem, ⟨3, _⟩ => ⟨S4000x256, .f32⟩
  | .local _ .vmem, ⟨4, _⟩ => ⟨S4000x256, .f32⟩
  | .local _ .vmem, ⟨5, _⟩ => ⟨S4000x256, .f32⟩
  | .local _ .vmem, ⟨6, _⟩ => ⟨S4000x256, .f32⟩
  | .local _ .vmem, ⟨7, _⟩ => ⟨S256x256, .f32⟩
  | .local _ .vmem, ⟨8, _⟩ => ⟨S4000x256, .f32⟩
  | .local _ .vmem, ⟨9, _⟩ => ⟨S4000x256, .f32⟩
  | .local _ .vmem, ⟨10, _⟩ => ⟨S4000x256, .f32⟩
  | .local _ .vmem, ⟨11, _⟩ => ⟨S4000x256, .f32⟩
  | .local _ .vmem, ⟨12, _⟩ => ⟨S256x256, .f32⟩
  | .local _ .vmem, ⟨13, _⟩ => ⟨S4000x256, .f32⟩
  | .local _ .vmem, ⟨14, _⟩ => ⟨S4000x256, .f32⟩
  | .local _ .vmem, ⟨15, _⟩ => ⟨S4000x256, .f32⟩
  | .local _ .vmem, ⟨16, _⟩ => ⟨S4000x256, .f32⟩
  | .local _ .vmem, ⟨17, _⟩ => ⟨S256x256, .f32⟩
  | .local _ .vmem, ⟨18, _⟩ => ⟨S4000x256, .f32⟩
  | .local _ .vmem, ⟨19, _⟩ => ⟨S4000x256, .f32⟩
  | .local _ .vmem, ⟨20, _⟩ => ⟨S4000x256, .f32⟩
  | .local _ .vmem, ⟨21, _⟩ => ⟨S4000x256, .f32⟩
  | .local _ .vmem, ⟨22, _⟩ => ⟨S256x256, .f32⟩
  | .local _ .vmem, ⟨23, _⟩ => ⟨S4000x256, .f32⟩
  | .local _ .vmem, ⟨24, _⟩ => ⟨S4000x256, .f32⟩
  | .local _ .vmem, ⟨25, _⟩ => ⟨S2000x256, .f32⟩
  | .local _ .vmem, ⟨26, _⟩ => ⟨S2000x256, .f32⟩
  | .local _ .vmem, ⟨27, _⟩ => ⟨S2000x256, .f32⟩
  | .local _ .vmem, ⟨28, _⟩ => ⟨S2000x256, .f32⟩
  | .local _ .vmem, ⟨29, _⟩ => ⟨S256x256, .f32⟩
  | .local _ .vmem, ⟨30, _⟩ => ⟨S1x256, .f32⟩
  | .local _ .vmem, ⟨31, _⟩ => ⟨S1x256, .f32⟩
  | .local _ .vmem, ⟨32, _⟩ => ⟨S1x256, .f32⟩
  | .local _ .vmem, ⟨33, _⟩ => ⟨S1x1, .f32⟩
  | .local _ .vmem, ⟨34, _⟩ => ⟨S2000x256, .f32⟩
  | .local _ .vmem, ⟨35, _⟩ => ⟨S2000x256, .f32⟩
  | _, _ => ⟨S100000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 36 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | _ => false

abbrev sig : RefSig :=
  ofTc nBuf bufTy 0 36 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_cst_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_call2_v0 : Ref sig .tc := ⟨.hbm, 111, rfl⟩
abbrev main_call2_v1 : Ref sig .tc := ⟨.hbm, 112, rfl⟩
abbrev main_v78 : Ref sig .tc := ⟨.hbm, 113, rfl⟩
abbrev main_cst_19 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_20 : Ref sig .tc := ⟨.hbm, 125, rfl⟩
abbrev main_v89 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_24 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_call3_v0 : Ref sig .tc := ⟨.hbm, 148, rfl⟩
abbrev main_call3_v1 : Ref sig .tc := ⟨.hbm, 149, rfl⟩
abbrev main_v106 : Ref sig .tc := ⟨.hbm, 150, rfl⟩
abbrev main_cst_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_c_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_29 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_31 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_32 : Ref sig .tc := ⟨.hbm, 184, rfl⟩
abbrev main_call4_v0 : Ref sig .tc := ⟨.hbm, 185, rfl⟩
abbrev main_call4_v1 : Ref sig .tc := ⟨.hbm, 186, rfl⟩
abbrev main_v134 : Ref sig .tc := ⟨.hbm, 187, rfl⟩
abbrev main_cst_33 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg1_1 : Ref sig .tc := ⟨.vmem, 28, rfl⟩
abbrev cc5_stg2_0 : Ref sig .tc := ⟨.vmem, 29, rfl⟩
abbrev cc5_stg3_0 : Ref sig .tc := ⟨.vmem, 30, rfl⟩
abbrev cc5_stg4_0 : Ref sig .tc := ⟨.vmem, 31, rfl⟩
abbrev cc5_stg5_0 : Ref sig .tc := ⟨.vmem, 32, rfl⟩
abbrev cc5_stg6_0 : Ref sig .tc := ⟨.vmem, 33, rfl⟩
abbrev cc5_stg7_0 : Ref sig .tc := ⟨.vmem, 34, rfl⟩
abbrev cc5_stg7_1 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem1_1 : DmaSem sig := 28
abbrev cc5_sem2_0 : DmaSem sig := 29
abbrev cc5_sem3_0 : DmaSem sig := 30
abbrev cc5_sem4_0 : DmaSem sig := 31
abbrev cc5_sem5_0 : DmaSem sig := 32
abbrev cc5_sem6_0 : DmaSem sig := 33
abbrev cc5_sem7_0 : DmaSem sig := 34
abbrev cc5_sem7_1 : DmaSem sig := 35

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4000x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S256x256 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S4000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S4000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S4000x256 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![50], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S4000x256 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S256x256 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S4000x256 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![50], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S4000x256 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S256x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S4000x256 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![50], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x256 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S256x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S1x256 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x256 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 1 → Memref sig .tc .vmem S1x256 .f32 := fun | 0 => Memref.whole cc5_stg5_0 | ⟨_ + 1, h⟩ => absurd h (Nat.not_lt.2 (Nat.le_add_left _ _))
abbrev sem5_5 : Fin 1 → DmaSem sig := fun | 0 => cc5_sem5_0 | ⟨_ + 1, h⟩ => absurd h (Nat.not_lt.2 (Nat.le_add_left _ _))
abbrev reads5_5 : Fin grid5.rank → Bool := ![false]

abbrev stage5_6 : Fin 1 → Memref sig .tc .vmem S1x1 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 2 → Memref sig .tc .vmem S2000x256 .f32 := fun | 0 => Memref.whole cc5_stg7_0 | 1 => Memref.whole cc5_stg7_1 | ⟨_ + 2, h⟩ => absurd h (Nat.not_lt.2 (Nat.le_add_left _ _))
abbrev sem5_7 : Fin 2 → DmaSem sig := fun | 0 => cc5_sem7_0 | 1 => cc5_sem7_1 | ⟨_ + 2, h⟩ => absurd h (Nat.not_lt.2 (Nat.le_add_left _ _))
abbrev reads5_7 : Fin grid5.rank → Bool := ![true]

class Facts₀ : Prop where
  bcast_S_S100000x256 : S_.BroadcastsInDim S100000x256 (![] : Fin 0 → Fin S100000x256.rank)
  slices_S5x2x200000_S1x1x200000_0_0_0 : S5x2x200000.Slices ![0, 0, 0] S1x1x200000
  shapeCasts_S1x1x200000_S200000 : S1x1x200000.ShapeCasts S200000
  slices_S5x2x200000_S1x1x200000_0_1_0 : S5x2x200000.Slices ![0, 1, 0] S1x1x200000
  bcast_S_S200000 : S_.BroadcastsInDim S200000 (![] : Fin 0 → Fin S200000.rank)
  bcast_S200000_S200000x1_0 : S200000.BroadcastsInDim S200000x1 (![0] : Fin 1 → Fin S200000x1.rank)
  slices_S5x256x256_S1x256x256_0_0_0 : S5x256x256.Slices ![0, 0, 0] S1x256x256
  shapeCasts_S1x256x256_S256x256 : S1x256x256.ShapeCasts S256x256
  inb_S4000x256_S4000x256_0_0 : ∀ a, (![0, 0] : Fin 2 → Nat) a + S4000x256.size a ≤ S4000x256.size a
  h_S4000x256 : 0 < S4000x256.numel
  shapeCasts_S4000x256_S4000x256 : S4000x256.ShapeCasts S4000x256
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  shapeCasts_S256x256_S256x256 : S256x256.ShapeCasts S256x256
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S5x2x200000_S1x1x200000_1_0_0 : S5x2x200000.Slices ![1, 0, 0] S1x1x200000
  slices_S5x2x200000_S1x1x200000_1_1_0 : S5x2x200000.Slices ![1, 1, 0] S1x1x200000
  slices_S5x256x256_S1x256x256_1_0_0 : S5x256x256.Slices ![1, 0, 0] S1x256x256
  slices_S5x2x200000_S1x1x200000_2_0_0 : S5x2x200000.Slices ![2, 0, 0] S1x1x200000
  slices_S5x2x200000_S1x1x200000_2_1_0 : S5x2x200000.Slices ![2, 1, 0] S1x1x200000
  slices_S5x256x256_S1x256x256_2_0_0 : S5x256x256.Slices ![2, 0, 0] S1x256x256
  slices_S5x2x200000_S1x1x200000_3_0_0 : S5x2x200000.Slices ![3, 0, 0] S1x1x200000
  slices_S5x2x200000_S1x1x200000_3_1_0 : S5x2x200000.Slices ![3, 1, 0] S1x1x200000
  slices_S5x256x256_S1x256x256_3_0_0 : S5x256x256.Slices ![3, 0, 0] S1x256x256
  slices_S5x2x200000_S1x1x200000_4_0_0 : S5x2x200000.Slices ![4, 0, 0] S1x1x200000
  slices_S5x2x200000_S1x1x200000_4_1_0 : S5x2x200000.Slices ![4, 1, 0] S1x1x200000
  slices_S5x256x256_S1x256x256_4_0_0 : S5x256x256.Slices ![4, 0, 0] S1x256x256
  shapeCasts_S256_S1x256 : S256.ShapeCasts S1x256
  shapeCasts_S1_S1x1 : S1.ShapeCasts S1x1
  inb_S2000x256_S2000x256_0_0 : ∀ a, (![0, 0] : Fin 2 → Nat) a + S2000x256.size a ≤ S2000x256.size a
  h_S2000x256 : 0 < S2000x256.numel
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  reduces_S2000x256_S2000 : S2000x256.Reduces [1] S2000
  shapeCasts_S2000_S2000x1 : S2000.ShapeCasts S2000x1
  broadcasts_S2000x1_S2000x256 : S2000x1.Broadcasts S2000x256
  inb_S1x1_S1x1_0_0 : ∀ a, (![0, 0] : Fin 2 → Nat) a + S1x1.size a ≤ S1x1.size a
  h_S1x1 : 0 < S1x1.numel
  inpos_S1x1_p0_0 : ∀ a, (![0, 0] : Fin 2 → Nat) a < S1x1.size a
  gather_S100000x256_S200000x1_S200000x256_1_0_n_n_0_1_1256_wf : GatherDims.WF S100000x256 S200000x1 S200000x256 [1] [0] [] [0] [] 1 ![1, 256]
  dot_S4000x256_S256x256_S4000x256_1_0_0_1_n_n_wf : DotDims.WF S4000x256 S256x256 S4000x256 [1] [0] [0] [1] [] []
  scatter_S100000_S200000x1_S200000_n_0_0_1_wf : ScatterDims.WF S100000 S200000x1 S200000 [] [0] [0] 1
  scatter_S100000x256_S200000x1_S200000x256_1_0_0_1_wf : ScatterDims.WF S100000x256 S200000x1 S200000x256 [1] [0] [0] 1
  dot_S2000x256_S256x256_S2000x256_1_0_0_1_n_n_wf : DotDims.WF S2000x256 S256x256 S2000x256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4000x256.size a ≤ S200000x256.size a
  hwx0_0 : ∀ i : grid0.Coords, EltTy.bits .f32 = 32 ∨ (Rect.block (s := S200000x256) S4000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4000x256.size a ≤ S200000x256.size a
  hwx0_2 : ∀ i : grid0.Coords, EltTy.bits .f32 = 32 ∨ (Rect.block (s := S200000x256) S4000x256.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x256.size a ≤ S200000x256.size a
  hwx1_0 : ∀ i : grid1.Coords, EltTy.bits .f32 = 32 ∨ (Rect.block (s := S200000x256) S4000x256.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S256x256.size a ≤ S256x256.size a
  hwx1_1 : ∀ i : grid1.Coords, EltTy.bits .f32 = 32 ∨ (Rect.block (s := S256x256) S256x256.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4000x256.size a ≤ S200000x256.size a
  hwx1_2 : ∀ i : grid1.Coords, EltTy.bits .f32 = 32 ∨ (Rect.block (s := S200000x256) S4000x256.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S4000x256.size a ≤ S200000x256.size a
  hwx2_0 : ∀ i : grid2.Coords, EltTy.bits .f32 = 32 ∨ (Rect.block (s := S200000x256) S4000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S4000x256.size a ≤ S200000x256.size a
  hwx2_2 : ∀ i : grid2.Coords, EltTy.bits .f32 = 32 ∨ (Rect.block (s := S200000x256) S4000x256.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S4000x256.size a ≤ S200000x256.size a
  hwx3_0 : ∀ i : grid3.Coords, EltTy.bits .f32 = 32 ∨ (Rect.block (s := S200000x256) S4000x256.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S256x256.size a ≤ S256x256.size a
  hwx3_1 : ∀ i : grid3.Coords, EltTy.bits .f32 = 32 ∨ (Rect.block (s := S256x256) S256x256.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S4000x256.size a ≤ S200000x256.size a
  hwx3_2 : ∀ i : grid3.Coords, EltTy.bits .f32 = 32 ∨ (Rect.block (s := S200000x256) S4000x256.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S4000x256.size a ≤ S200000x256.size a
  hwx4_0 : ∀ i : grid4.Coords, EltTy.bits .f32 = 32 ∨ (Rect.block (s := S200000x256) S4000x256.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S256x256.size a ≤ S256x256.size a
  hwx4_1 : ∀ i : grid4.Coords, EltTy.bits .f32 = 32 ∨ (Rect.block (s := S256x256) S256x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S4000x256.size a ≤ S200000x256.size a
  hwx4_2 : ∀ i : grid4.Coords, EltTy.bits .f32 = 32 ∨ (Rect.block (s := S200000x256) S4000x256.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S100000x256.size a
  hwx5_0 : ∀ i : grid5.Coords, EltTy.bits .f32 = 32 ∨ (Rect.block (s := S100000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x256.size a ≤ S100000x256.size a
  hwx5_1 : ∀ i : grid5.Coords, EltTy.bits .f32 = 32 ∨ (Rect.block (s := S100000x256) S2000x256.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S256x256.size a ≤ S256x256.size a
  hwx5_2 : ∀ i : grid5.Coords, EltTy.bits .f32 = 32 ∨ (Rect.block (s := S256x256) S256x256.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x256.size a ≤ S1x256.size a
  hwx5_3 : ∀ i : grid5.Coords, EltTy.bits .f32 = 32 ∨ (Rect.block (s := S1x256) S1x256.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x256.size a ≤ S1x256.size a
  hwx5_4 : ∀ i : grid5.Coords, EltTy.bits .f32 = 32 ∨ (Rect.block (s := S1x256) S1x256.size (cc5_transform_4 i) (hinb5_4 i)).WholeWords (EltTy.packing .f32)
  hstage5_5 : ∀ j, (stage5_5 j).IsWhole
  nbuf5_5 : grid5.bufCount reads5_5 true = 1
  hreads5_5 : ∀ i i' : grid5.Coords, (∀ a, reads5_5 a = true → i a = i' a) → cc5_transform_5 i = cc5_transform_5 i'
  hinb5_5 : ∀ (i : grid5.Coords) a, (cc5_transform_5 i a + 1) * S1x256.size a ≤ S1x256.size a
  hwx5_5 : ∀ i : grid5.Coords, EltTy.bits .f32 = 32 ∨ (Rect.block (s := S1x256) S1x256.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x1.size a ≤ S1x1.size a
  hwx5_6 : ∀ i : grid5.Coords, EltTy.bits .f32 = 32 ∨ (Rect.block (s := S1x1) S1x1.size (cc5_transform_6 i) (hinb5_6 i)).WholeWords (EltTy.packing .f32)
  hstage5_7 : ∀ j, (stage5_7 j).IsWhole
  nbuf5_7 : grid5.bufCount reads5_7 false = 2
  hreads5_7 : ∀ i i' : grid5.Coords, (∀ a, reads5_7 a = true → i a = i' a) → cc5_transform_7 i = cc5_transform_7 i'
  hinb5_7 : ∀ (i : grid5.Coords) a, (cc5_transform_7 i a + 1) * S2000x256.size a ≤ S100000x256.size a
  hwx5_7 : ∀ i : grid5.Coords, EltTy.bits .f32 = 32 ∨ (Rect.block (s := S100000x256) S2000x256.size (cc5_transform_7 i) (hinb5_7 i)).WholeWords (EltTy.packing .f32)

variable [Facts₀]

def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def dot_S4000x256_S256x256_S4000x256_1_0_0_1_n_n : DotDims S4000x256 S256x256 S4000x256 where
  lhsContracting := [1]
  rhsContracting := [0]
  lhsNonContracting := [0]
  rhsNonContracting := [1]
  lhsBatch := []
  rhsBatch := []
  wf := dot_S4000x256_S256x256_S4000x256_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf

abbrev win0_0 : Pipeline.Window sig grid0 :=
  Pipeline.Window.ofSpec (Memref.whole main_v11) S4000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v14) S4000x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S4000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v41) S256x256.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v42) S4000x256.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v67) S4000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v69) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v70) S4000x256.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v95) S4000x256.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v97) S256x256.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v98) S4000x256.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v123) S4000x256.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v125) S256x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v126) S4000x256.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v140) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg0) S2000x256.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg3) S256x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v141) S1x256.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v142) S1x256.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v143) S1x256.size cc5_transform_5 reads5_5 false true 1 stage5_5 sem5_5
    hrank5 hreads5_5 hinb5_5 nbuf5_5 (Memref.isWhole_whole _) hwx5_5 hstage5_5

abbrev win5_6 : Pipeline.Window sig grid5 :=
  Pipeline.Window.ofSpec (Memref.whole main_v144) S1x1.size cc5_transform_6 reads5_6 false true 1 stage5_6 sem5_6
    hrank5 hreads5_6 hinb5_6 nbuf5_6 (Memref.isWhole_whole _) hwx5_6 hstage5_6

abbrev win5_7 : Pipeline.Window sig grid5 :=
  Pipeline.Window.ofSpec (Memref.whole main_v145) S2000x256.size cc5_transform_7 reads5_7 true false 2 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

class Facts : Prop extends Facts₀ where

variable [Facts]
-- ==== ReferenceIdeal.lean ====
abbrev S100000x256 : Shape := ⟨2, ![100000, 256]⟩
abbrev S5x2x200000 : Shape := ⟨3, ![5, 2, 200000]⟩
abbrev S5x256x256 : Shape := ⟨3, ![5, 256, 256]⟩
abbrev S256x256 : Shape := ⟨2, ![256, 256]⟩
abbrev S256 : Shape := ⟨1, ![256]⟩
abbrev S1 : Shape := ⟨1, ![1]⟩
abbrev S_ : Shape := ⟨0, ![]⟩
abbrev S1x1x200000 : Shape := ⟨3, ![1, 1, 200000]⟩
abbrev S200000 : Shape := ⟨1, ![200000]⟩
abbrev S200000x1 : Shape := ⟨2, ![200000, 1]⟩
abbrev S200000x256 : Shape := ⟨2, ![200000, 256]⟩
abbrev S1x256x256 : Shape := ⟨3, ![1, 256, 256]⟩
abbrev S100000 : Shape := ⟨1, ![100000]⟩
abbrev S100000x1 : Shape := ⟨2, ![100000, 1]⟩
abbrev S1x256 : Shape := ⟨2, ![1, 256]⟩
abbrev S1x1 : Shape := ⟨2, ![1, 1]⟩

abbrev nBuf : Space → Nat
  | .hbm => 237
  | .vmem => 0
  | .smem => 0
  | _ => 0

abbrev hbmTy0_0 (i : Nat) : BufTy := match i % 128 with
  | 0 => ⟨S100000x256, .f32⟩
  | 1 => ⟨S5x2x200000, .i32⟩
  | 2 => ⟨S5x256x256, .f32⟩
  | 3 => ⟨S256x256, .f32⟩
  | 4 => ⟨S256, .f32⟩
  | 5 => ⟨S256, .f32⟩
  | 6 => ⟨S256, .f32⟩
  | 7 => ⟨S1, .f32⟩
  | 8 => ⟨S_, .f32⟩
  | 9 => ⟨S100000x256, .f32⟩
  | 10 => ⟨S1x1x200000, .i32⟩
  | 11 => ⟨S200000, .i32⟩
  | 12 => ⟨S1x1x200000, .i32⟩
  | 13 => ⟨S200000, .i32⟩
  | 14 => ⟨S_, .i32⟩
  | 15 => ⟨S200000, .i32⟩
  | 16 => ⟨S200000, .i1⟩
  | 17 => ⟨S_, .i32⟩
  | 18 => ⟨S200000, .i32⟩
  | 19 => ⟨S200000, .i32⟩
  | 20 => ⟨S200000, .i32⟩
  | 21 => ⟨S200000x1, .i32⟩
  | 22 => ⟨S200000x256, .f32⟩
  | 23 => ⟨S1x256x256, .f32⟩
  | 24 => ⟨S256x256, .f32⟩
  | 25 => ⟨S200000x256, .f32⟩
  | 26 => ⟨S_, .f32⟩
  | 27 => ⟨S200000, .f32⟩
  | 28 => ⟨S_, .f32⟩
  | 29 => ⟨S100000, .f32⟩
  | 30 => ⟨S200000x1, .i32⟩
  | 31 => ⟨S100000, .f32⟩
  | 32 => ⟨S_, .f32⟩
  | 33 => ⟨S100000x256, .f32⟩
  | 34 => ⟨S200000x1, .i32⟩
  | 35 => ⟨S100000x256, .f32⟩
  | 36 => ⟨S_, .f32⟩
  | 37 => ⟨S_, .f32⟩
  | 38 => ⟨S100000, .f32⟩
  | 39 => ⟨S100000, .f32⟩
  | 40 => ⟨S_, .f32⟩
  | 41 => ⟨S100000, .f32⟩
  | 42 => ⟨S100000, .f32⟩
  | 43 => ⟨S100000x1, .f32⟩
  | 44 => ⟨S100000x256, .f32⟩
  | 45 => ⟨S100000x256, .f32⟩
  | 46 => ⟨S100000x256, .f32⟩
  | 47 => ⟨S1x1x200000, .i32⟩
  | 48 => ⟨S200000, .i32⟩
  | 49 => ⟨S1x1x200000, .i32⟩
  | 50 => ⟨S200000, .i32⟩
  | 51 => ⟨S_, .i32⟩
  | 52 => ⟨S200000, .i32⟩
  | 53 => ⟨S200000, .i1⟩
  | 54 => ⟨S_, .i32⟩
  | 55 => ⟨S200000, .i32⟩
  | 56 => ⟨S200000, .i32⟩
  | 57 => ⟨S200000, .i32⟩
  | 58 => ⟨S200000x1, .i32⟩
  | 59 => ⟨S200000x256, .f32⟩
  | 60 => ⟨S1x256x256, .f32⟩
  | 61 => ⟨S256x256, .f32⟩
  | 62 => ⟨S200000x256, .f32⟩
  | 63 => ⟨S_, .f32⟩
  | 64 => ⟨S200000, .f32⟩
  | 65 => ⟨S_, .f32⟩
  | 66 => ⟨S100000, .f32⟩
  | 67 => ⟨S200000x1, .i32⟩
  | 68 => ⟨S100000, .f32⟩
  | 69 => ⟨S_, .f32⟩
  | 70 => ⟨S100000x256, .f32⟩
  | 71 => ⟨S200000x1, .i32⟩
  | 72 => ⟨S100000x256, .f32⟩
  | 73 => ⟨S_, .f32⟩
  | 74 => ⟨S_, .f32⟩
  | 75 => ⟨S100000, .f32⟩
  | 76 => ⟨S100000, .f32⟩
  | 77 => ⟨S_, .f32⟩
  | 78 => ⟨S100000, .f32⟩
  | 79 => ⟨S100000, .f32⟩
  | 80 => ⟨S100000x1, .f32⟩
  | 81 => ⟨S100000x256, .f32⟩
  | 82 => ⟨S100000x256, .f32⟩
  | 83 => ⟨S100000x256, .f32⟩
  | 84 => ⟨S1x1x200000, .i32⟩
  | 85 => ⟨S200000, .i32⟩
  | 86 => ⟨S1x1x200000, .i32⟩
  | 87 => ⟨S200000, .i32⟩
  | 88 => ⟨S_, .i32⟩
  | 89 => ⟨S200000, .i32⟩
  | 90 => ⟨S200000, .i1⟩
  | 91 => ⟨S_, .i32⟩
  | 92 => ⟨S200000, .i32⟩
  | 93 => ⟨S200000, .i32⟩
  | 94 => ⟨S200000, .i32⟩
  | 95 => ⟨S200000x1, .i32⟩
  | 96 => ⟨S200000x256, .f32⟩
  | 97 => ⟨S1x256x256, .f32⟩
  | 98 => ⟨S256x256, .f32⟩
  | 99 => ⟨S200000x256, .f32⟩
  | 100 => ⟨S_, .f32⟩
  | 101 => ⟨S200000, .f32⟩
  | 102 => ⟨S_, .f32⟩
  | 103 => ⟨S100000, .f32⟩
  | 104 => ⟨S200000x1, .i32⟩
  | 105 => ⟨S100000, .f32⟩
  | 106 => ⟨S_, .f32⟩
  | 107 => ⟨S100000x256, .f32⟩
  | 108 => ⟨S200000x1, .i32⟩
  | 109 => ⟨S100000x256, .f32⟩
  | 110 => ⟨S_, .f32⟩
  | 111 => ⟨S_, .f32⟩
  | 112 => ⟨S100000, .f32⟩
  | 113 => ⟨S100000, .f32⟩
  | 114 => ⟨S_, .f32⟩
  | 115 => ⟨S100000, .f32⟩
  | 116 => ⟨S100000, .f32⟩
  | 117 => ⟨S100000x1, .f32⟩
  | 118 => ⟨S100000x256, .f32⟩
  | 119 => ⟨S100000x256, .f32⟩
  | 120 => ⟨S100000x256, .f32⟩
  | 121 => ⟨S1x1x200000, .i32⟩
  | 122 => ⟨S200000, .i32⟩
  | 123 => ⟨S1x1x200000, .i32⟩
  | 124 => ⟨S200000, .i32⟩
  | 125 => ⟨S_, .i32⟩
  | 126 => ⟨S200000, .i32⟩
  | 127 => ⟨S200000, .i1⟩
  | _ => ⟨S100000x256, .f32⟩

abbrev hbmTy0_1 (i : Nat) : BufTy := match i % 128 with
  | 0 => ⟨S_, .i32⟩
  | 1 => ⟨S200000, .i32⟩
  | 2 => ⟨S200000, .i32⟩
  | 3 => ⟨S200000, .i32⟩
  | 4 => ⟨S200000x1, .i32⟩
  | 5 => ⟨S200000x256, .f32⟩
  | 6 => ⟨S1x256x256, .f32⟩
  | 7 => ⟨S256x256, .f32⟩
  | 8 => ⟨S200000x256, .f32⟩
  | 9 => ⟨S_, .f32⟩
  | 10 => ⟨S200000, .f32⟩
  | 11 => ⟨S_, .f32⟩
  | 12 => ⟨S100000, .f32⟩
  | 13 => ⟨S200000x1, .i32⟩
  | 14 => ⟨S100000, .f32⟩
  | 15 => ⟨S_, .f32⟩
  | 16 => ⟨S100000x256, .f32⟩
  | 17 => ⟨S200000x1, .i32⟩
  | 18 => ⟨S100000x256, .f32⟩
  | 19 => ⟨S_, .f32⟩
  | 20 => ⟨S_, .f32⟩
  | 21 => ⟨S100000, .f32⟩
  | 22 => ⟨S100000, .f32⟩
  | 23 => ⟨S_, .f32⟩
  | 24 => ⟨S100000, .f32⟩
  | 25 => ⟨S100000, .f32⟩
  | 26 => ⟨S100000x1, .f32⟩
  | 27 => ⟨S100000x256, .f32⟩
  | 28 => ⟨S100000x256, .f32⟩
  | 29 => ⟨S100000x256, .f32⟩
  | 30 => ⟨S1x1x200000, .i32⟩
  | 31 => ⟨S200000, .i32⟩
  | 32 => ⟨S1x1x200000, .i32⟩
  | 33 => ⟨S200000, .i32⟩
  | 34 => ⟨S_, .i32⟩
  | 35 => ⟨S200000, .i32⟩
  | 36 => ⟨S200000, .i1⟩
  | 37 => ⟨S_, .i32⟩
  | 38 => ⟨S200000, .i32⟩
  | 39 => ⟨S200000, .i32⟩
  | 40 => ⟨S200000, .i32⟩
  | 41 => ⟨S200000x1, .i32⟩
  | 42 => ⟨S200000x256, .f32⟩
  | 43 => ⟨S1x256x256, .f32⟩
  | 44 => ⟨S256x256, .f32⟩
  | 45 => ⟨S200000x256, .f32⟩
  | 46 => ⟨S_, .f32⟩
  | 47 => ⟨S200000, .f32⟩
  | 48 => ⟨S_, .f32⟩
  | 49 => ⟨S100000, .f32⟩
  | 50 => ⟨S200000x1, .i32⟩
  | 51 => ⟨S100000, .f32⟩
  | 52 => ⟨S_, .f32⟩
  | 53 => ⟨S100000x256, .f32⟩
  | 54 => ⟨S200000x1, .i32⟩
  | 55 => ⟨S100000x256, .f32⟩
  | 56 => ⟨S_, .f32⟩
  | 57 => ⟨S_, .f32⟩
  | 58 => ⟨S100000, .f32⟩
  | 59 => ⟨S100000, .f32⟩
  | 60 => ⟨S_, .f32⟩
  | 61 => ⟨S100000, .f32⟩
  | 62 => ⟨S100000, .f32⟩
  | 63 => ⟨S100000x1, .f32⟩
  | 64 => ⟨S100000x256, .f32⟩
  | 65 => ⟨S100000x256, .f32⟩
  | 66 => ⟨S100000x256, .f32⟩
  | 67 => ⟨S100000x256, .f32⟩
  | 68 => ⟨S100000x256, .f32⟩
  | 69 => ⟨S1x256, .f32⟩
  | 70 => ⟨S100000x256, .f32⟩
  | 71 => ⟨S100000x256, .f32⟩
  | 72 => ⟨S100000x256, .f32⟩
  | 73 => ⟨S_, .f32⟩
  | 74 => ⟨S100000, .f32⟩
  | 75 => ⟨S100000x1, .f32⟩
  | 76 => ⟨S_, .f32⟩
  | 77 => ⟨S100000x1, .f32⟩
  | 78 => ⟨S100000x1, .f32⟩
  | 79 => ⟨S100000x256, .f32⟩
  | 80 => ⟨S100000x256, .f32⟩
  | 81 => ⟨S100000x256, .f32⟩
  | 82 => ⟨S_, .f32⟩
  | 83 => ⟨S100000, .f32⟩
  | 84 => ⟨S100000x1, .f32⟩
  | 85 => ⟨S_, .f32⟩
  | 86 => ⟨S100000x1, .f32⟩
  | 87 => ⟨S100000x1, .f32⟩
  | 88 => ⟨S100000x256, .f32⟩
  | 89 => ⟨S100000x256, .f32⟩
  | 90 => ⟨S_, .f32⟩
  | 91 => ⟨S100000x1, .f32⟩
  | 92 => ⟨S100000x1, .f32⟩
  | 93 => ⟨S100000x1, .f32⟩
  | 94 => ⟨S100000x256, .f32⟩
  | 95 => ⟨S100000x256, .f32⟩
  | 96 => ⟨S1x256, .f32⟩
  | 97 => ⟨S100000x256, .f32⟩
  | 98 => ⟨S100000x256, .f32⟩
  | 99 => ⟨S1x256, .f32⟩
  | 100 => ⟨S100000x256, .f32⟩
  | 101 => ⟨S100000x256, .f32⟩
  | 102 => ⟨S_, .f32⟩
  | 103 => ⟨S100000x256, .f32⟩
  | 104 => ⟨S100000x256, .i1⟩
  | 105 => ⟨S1x1, .f32⟩
  | 106 => ⟨S100000x256, .f32⟩
  | 107 => ⟨S100000x256, .f32⟩
  | 108 => ⟨S100000x256, .f32⟩
  | _ => ⟨S100000x256, .f32⟩

abbrev hbmTy (i : Nat) : BufTy := match i / 128 with
  | 0 => hbmTy0_0 i
  | 1 => hbmTy0_1 i
  | _ => ⟨S100000x256, .f32⟩

abbrev bufTy : (tb : Table) → Fin (tcTables nBuf tb) → BufTy
  | .hbm, ⟨i, _⟩ => hbmTy i
  | _, _ => ⟨S100000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_cst_1 : Ref sig .tc := ⟨.hbm, 26, rfl⟩
abbrev main_v15 : Ref sig .tc := ⟨.hbm, 27, rfl⟩
abbrev main_cst_2 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_3 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_call0_v0 : Ref sig .tc := ⟨.hbm, 37, rfl⟩
abbrev main_call0_v1 : Ref sig .tc := ⟨.hbm, 38, rfl⟩
abbrev main_v22 : Ref sig .tc := ⟨.hbm, 39, rfl⟩
abbrev main_cst_5 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_c_6 : Ref sig .tc := ⟨.hbm, 51, rfl⟩
abbrev main_v33 : Ref sig .tc := ⟨.hbm, 52, rfl⟩
abbrev main_v34 : Ref sig .tc := ⟨.hbm, 53, rfl⟩
abbrev main_c_7 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_cst_9 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_10 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_11 : Ref sig .tc := ⟨.hbm, 73, rfl⟩
abbrev main_call1_v0 : Ref sig .tc := ⟨.hbm, 74, rfl⟩
abbrev main_call1_v1 : Ref sig .tc := ⟨.hbm, 75, rfl⟩
abbrev main_v50 : Ref sig .tc := ⟨.hbm, 76, rfl⟩
abbrev main_cst_12 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_v56 : Ref sig .tc := ⟨.hbm, 83, rfl⟩
abbrev main_v57 : Ref sig .tc := ⟨.hbm, 84, rfl⟩
abbrev main_v58 : Ref sig .tc := ⟨.hbm, 85, rfl⟩
abbrev main_v59 : Ref sig .tc := ⟨.hbm, 86, rfl⟩
abbrev main_v60 : Ref sig .tc := ⟨.hbm, 87, rfl⟩
abbrev main_c_13 : Ref sig .tc := ⟨.hbm, 88, rfl⟩
abbrev main_v61 : Ref sig .tc := ⟨.hbm, 89, rfl⟩
abbrev main_v62 : Ref sig .tc := ⟨.hbm, 90, rfl⟩
abbrev main_c_14 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_cst_15 : Ref sig .tc := ⟨.hbm, 100, rfl⟩
abbrev main_v71 : Ref sig .tc := ⟨.hbm, 101, rfl⟩
abbrev main_cst_16 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_17 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_cst_18 : Ref sig .tc := ⟨.hbm, 110, rfl⟩
abbrev main_call2_v0 : Ref sig .tc := ⟨.hbm, 111, rfl⟩
abbrev main_call2_v1 : Ref sig .tc := ⟨.hbm, 112, rfl⟩
abbrev main_v78 : Ref sig .tc := ⟨.hbm, 113, rfl⟩
abbrev main_cst_19 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_c_20 : Ref sig .tc := ⟨.hbm, 125, rfl⟩
abbrev main_v89 : Ref sig .tc := ⟨.hbm, 126, rfl⟩
abbrev main_v90 : Ref sig .tc := ⟨.hbm, 127, rfl⟩
abbrev main_c_21 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_cst_23 : Ref sig .tc := ⟨.hbm, 139, rfl⟩
abbrev main_v100 : Ref sig .tc := ⟨.hbm, 140, rfl⟩
abbrev main_v101 : Ref sig .tc := ⟨.hbm, 141, rfl⟩
abbrev main_v102 : Ref sig .tc := ⟨.hbm, 142, rfl⟩
abbrev main_cst_24 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_cst_25 : Ref sig .tc := ⟨.hbm, 147, rfl⟩
abbrev main_call3_v0 : Ref sig .tc := ⟨.hbm, 148, rfl⟩
abbrev main_call3_v1 : Ref sig .tc := ⟨.hbm, 149, rfl⟩
abbrev main_v106 : Ref sig .tc := ⟨.hbm, 150, rfl⟩
abbrev main_cst_26 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_c_27 : Ref sig .tc := ⟨.hbm, 162, rfl⟩
abbrev main_v117 : Ref sig .tc := ⟨.hbm, 163, rfl⟩
abbrev main_v118 : Ref sig .tc := ⟨.hbm, 164, rfl⟩
abbrev main_c_28 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_cst_29 : Ref sig .tc := ⟨.hbm, 174, rfl⟩
abbrev main_v127 : Ref sig .tc := ⟨.hbm, 175, rfl⟩
abbrev main_cst_30 : Ref sig .tc := ⟨.hbm, 176, rfl⟩
abbrev main_v128 : Ref sig .tc := ⟨.hbm, 177, rfl⟩
abbrev main_v129 : Ref sig .tc := ⟨.hbm, 178, rfl⟩
abbrev main_v130 : Ref sig .tc := ⟨.hbm, 179, rfl⟩
abbrev main_cst_31 : Ref sig .tc := ⟨.hbm, 180, rfl⟩
abbrev main_v131 : Ref sig .tc := ⟨.hbm, 181, rfl⟩
abbrev main_v132 : Ref sig .tc := ⟨.hbm, 182, rfl⟩
abbrev main_v133 : Ref sig .tc := ⟨.hbm, 183, rfl⟩
abbrev main_cst_32 : Ref sig .tc := ⟨.hbm, 184, rfl⟩
abbrev main_call4_v0 : Ref sig .tc := ⟨.hbm, 185, rfl⟩
abbrev main_call4_v1 : Ref sig .tc := ⟨.hbm, 186, rfl⟩
abbrev main_v134 : Ref sig .tc := ⟨.hbm, 187, rfl⟩
abbrev main_cst_33 : Ref sig .tc := ⟨.hbm, 188, rfl⟩
abbrev main_v135 : Ref sig .tc := ⟨.hbm, 189, rfl⟩
abbrev main_v136 : Ref sig .tc := ⟨.hbm, 190, rfl⟩
abbrev main_v137 : Ref sig .tc := ⟨.hbm, 191, rfl⟩
abbrev main_v138 : Ref sig .tc := ⟨.hbm, 192, rfl⟩
abbrev main_v139 : Ref sig .tc := ⟨.hbm, 193, rfl⟩
abbrev main_v140 : Ref sig .tc := ⟨.hbm, 194, rfl⟩
abbrev main_v141 : Ref sig .tc := ⟨.hbm, 195, rfl⟩
abbrev main_v142 : Ref sig .tc := ⟨.hbm, 196, rfl⟩
abbrev main_v143 : Ref sig .tc := ⟨.hbm, 197, rfl⟩
abbrev main_v144 : Ref sig .tc := ⟨.hbm, 198, rfl⟩
abbrev main_v145 : Ref sig .tc := ⟨.hbm, 199, rfl⟩
abbrev main_v146 : Ref sig .tc := ⟨.hbm, 200, rfl⟩
abbrev main_cst_34 : Ref sig .tc := ⟨.hbm, 201, rfl⟩
abbrev main_v147 : Ref sig .tc := ⟨.hbm, 202, rfl⟩
abbrev main_v148 : Ref sig .tc := ⟨.hbm, 203, rfl⟩
abbrev main_cst_35 : Ref sig .tc := ⟨.hbm, 204, rfl⟩
abbrev main_v149 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_cst_36 : Ref sig .tc := ⟨.hbm, 210, rfl⟩
abbrev main_v154 : Ref sig .tc := ⟨.hbm, 211, rfl⟩
abbrev main_v155 : Ref sig .tc := ⟨.hbm, 212, rfl⟩
abbrev main_cst_37 : Ref sig .tc := ⟨.hbm, 213, rfl⟩
abbrev main_v156 : Ref sig .tc := ⟨.hbm, 214, rfl⟩
abbrev main_v157 : Ref sig .tc := ⟨.hbm, 215, rfl⟩
abbrev main_v158 : Ref sig .tc := ⟨.hbm, 216, rfl⟩
abbrev main_v159 : Ref sig .tc := ⟨.hbm, 217, rfl⟩
abbrev main_cst_38 : Ref sig .tc := ⟨.hbm, 218, rfl⟩
abbrev main_v160 : Ref sig .tc := ⟨.hbm, 219, rfl⟩
abbrev main_v161 : Ref sig .tc := ⟨.hbm, 220, rfl⟩
abbrev main_v162 : Ref sig .tc := ⟨.hbm, 221, rfl⟩
abbrev main_v163 : Ref sig .tc := ⟨.hbm, 222, rfl⟩
abbrev main_v164 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_cst_39 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_v175 : Ref sig .tc := ⟨.hbm, 235, rfl⟩
abbrev main_v176 : Ref sig .tc := ⟨.hbm, 236, rfl⟩

abbrev nD : Nat := 1
abbrev τ : Topo := Topo.v7x

variable {F : FTy → Type} [FloatOps F]

class Facts₀ : Prop where
  bcast_S_S100000x256 : S_.BroadcastsInDim S100000x256 (![] : Fin 0 → Fin S100000x256.rank)
  slices_S5x2x200000_S1x1x200000_0_0_0 : S5x2x200000.Slices ![0, 0, 0] S1x1x200000
  shapeCasts_S1x1x200000_S200000 : S1x1x200000.ShapeCasts S200000
  slices_S5x2x200000_S1x1x200000_0_1_0 : S5x2x200000.Slices ![0, 1, 0] S1x1x200000
  bcast_S_S200000 : S_.BroadcastsInDim S200000 (![] : Fin 0 → Fin S200000.rank)
  bcast_S200000_S200000x1_0 : S200000.BroadcastsInDim S200000x1 (![0] : Fin 1 → Fin S200000x1.rank)
  slices_S5x256x256_S1x256x256_0_0_0 : S5x256x256.Slices ![0, 0, 0] S1x256x256
  shapeCasts_S1x256x256_S256x256 : S1x256x256.ShapeCasts S256x256
  bcast_S_S100000 : S_.BroadcastsInDim S100000 (![] : Fin 0 → Fin S100000.rank)
  bcast_S100000_S100000x1_0 : S100000.BroadcastsInDim S100000x1 (![0] : Fin 1 → Fin S100000x1.rank)
  bcast_S100000x1_S100000x256_0_1 : S100000x1.BroadcastsInDim S100000x256 (![0, 1] : Fin 2 → Fin S100000x256.rank)
  slices_S5x2x200000_S1x1x200000_1_0_0 : S5x2x200000.Slices ![1, 0, 0] S1x1x200000
  slices_S5x2x200000_S1x1x200000_1_1_0 : S5x2x200000.Slices ![1, 1, 0] S1x1x200000
  slices_S5x256x256_S1x256x256_1_0_0 : S5x256x256.Slices ![1, 0, 0] S1x256x256
  slices_S5x2x200000_S1x1x200000_2_0_0 : S5x2x200000.Slices ![2, 0, 0] S1x1x200000
  slices_S5x2x200000_S1x1x200000_2_1_0 : S5x2x200000.Slices ![2, 1, 0] S1x1x200000
  slices_S5x256x256_S1x256x256_2_0_0 : S5x256x256.Slices ![2, 0, 0] S1x256x256
  slices_S5x2x200000_S1x1x200000_3_0_0 : S5x2x200000.Slices ![3, 0, 0] S1x1x200000
  slices_S5x2x200000_S1x1x200000_3_1_0 : S5x2x200000.Slices ![3, 1, 0] S1x1x200000
  slices_S5x256x256_S1x256x256_3_0_0 : S5x256x256.Slices ![3, 0, 0] S1x256x256
  slices_S5x2x200000_S1x1x200000_4_0_0 : S5x2x200000.Slices ![4, 0, 0] S1x1x200000
  slices_S5x2x200000_S1x1x200000_4_1_0 : S5x2x200000.Slices ![4, 1, 0] S1x1x200000
  slices_S5x256x256_S1x256x256_4_0_0 : S5x256x256.Slices ![4, 0, 0] S1x256x256
  bcast_S256_S1x256_1 : S256.BroadcastsInDim S1x256 (![1] : Fin 1 → Fin S1x256.rank)
  bcast_S1x256_S100000x256_0_1 : S1x256.BroadcastsInDim S100000x256 (![0, 1] : Fin 2 → Fin S100000x256.rank)
  reducesTo_S100000x256_S100000_d1 : S100000x256.ReducesTo [1] S100000
  h_S_ : 0 < S_.numel
  bcast_S_S100000x1 : S_.BroadcastsInDim S100000x1 (![] : Fin 0 → Fin S100000x1.rank)
  bcast_S1_S1x1_1 : S1.BroadcastsInDim S1x1 (![1] : Fin 1 → Fin S1x1.rank)
  bcast_S1x1_S100000x256_0_1 : S1x1.BroadcastsInDim S100000x256 (![0, 1] : Fin 2 → Fin S100000x256.rank)
  gather_S100000x256_S200000x1_S200000x256_1_0_n_n_0_1_1256_wf : GatherDims.WF S100000x256 S200000x1 S200000x256 [1] [0] [] [0] [] 1 ![1, 256]
  dot_S200000x256_S256x256_S200000x256_1_0_0_1_n_n_wf : DotDims.WF S200000x256 S256x256 S200000x256 [1] [0] [0] [1] [] []
  scatter_S100000_S200000x1_S200000_n_0_0_1_wf : ScatterDims.WF S100000 S200000x1 S200000 [] [0] [0] 1
  scatter_S100000x256_S200000x1_S200000x256_1_0_0_1_wf : ScatterDims.WF S100000x256 S200000x1 S200000x256 [1] [0] [0] 1
  dot_S100000x256_S256x256_S100000x256_1_0_0_1_n_n_wf : DotDims.WF S100000x256 S256x256 S100000x256 [1] [0] [0] [1] [] []

variable [Facts₀]

def gather_S100000x256_S200000x1_S200000x256_1_0_n_n_0_1_1256 : GatherDims S100000x256 S200000x1 S200000x256 where
  offsetDims := [1]
  collapsedSliceDims := [0]
  operandBatchingDims := []
  startIndicesBatchingDims := []
  startIndexMap := [0]
  indexVectorDim := 1
  sliceSizes := ![1, 256]
  wf := gather_S100000x256_S200000x1_S200000x256_1_0_n_n_0_1_1256_wf
def dot_S200000x256_S256x256_S200000x256_1_0_0_1_n_n : DotDims S200000x256 S256x256 S200000x256 where
  lhsContracting := [1]
  rhsContracting := [0]
  lhsNonContracting := [0]
  rhsNonContracting := [1]
  lhsBatch := []
  rhsBatch := []
  wf := dot_S200000x256_S256x256_S200000x256_1_0_0_1_n_n_wf
def scatter_S100000_S200000x1_S200000_n_0_0_1 : ScatterDims S100000 S200000x1 S200000 where
  updateWindowDims := []
  insertedWindowDims := [0]
  scatterDimsToOperandDims := [0]
  indexVectorDim := 1
  wf := scatter_S100000_S200000x1_S200000_n_0_0_1_wf
def scatter_S100000x256_S200000x1_S200000x256_1_0_0_1 : ScatterDims S100000x256 S200000x1 S200000x256 where
  updateWindowDims := [1]
  insertedWindowDims := [0]
  scatterDimsToOperandDims := [0]
  indexVectorDim := 1
  wf := scatter_S100000x256_S200000x1_S200000x256_1_0_0_1_wf
def dot_S100000x256_S256x256_S100000x256_1_0_0_1_n_n : DotDims S100000x256 S256x256 S100000x256 where
  lhsContracting := [1]
  rhsContracting := [0]
  lhsNonContracting := [0]
  rhsNonContracting := [1]
  lhsBatch := []
  rhsBatch := []
  wf := dot_S100000x256_S256x256_S100000x256_1_0_0_1_n_n_wf

class Facts : Prop extends Facts₀ where

variable [Facts]
-- ==== Proof.RunResult.lean ====
/-
  The kernel program's run with its result array named.

  The program is six pipelined regions among stretches of host operations.  Launched from any memory with zero
  counters, every weakly fair execution terminates, and the final memory holds, at every unscoped buffer, the
  contents the fold of the segments leaves there (`Gen.W22`): in particular the result array is the last region's
  output array as that fold has it, and the eight argument arrays are as launched.
-/
import proofs.«162310_j29377576305387_1_alg».proof.Proof.Gen.KernelIdeal.Frame

set_option maxRecDepth 16384

noncomputable section

namespace Cert.KernelIdeal.RunResult

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution terminates; the result array ends at the segment fold's contents of its buffer and
    the arguments end as launched. -/
theorem run_result : θ_run defs (onTc (τ := τ) (main (F := F))) ⟨m, fun _ => 0, ρ⟩ (fun r => ∀ c : Dev nD,
      r.2.mem ((c.tc : Thread nD τ).loc main_v145) = W22 m ρ c (Proc.devRef .tc main_v145)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W22 m ρ c b)
    (hfin := fun c s' => by
      iintro ⟨⟨Hh, -⟩, HSI⟩
      unfold StableHlo.held
      imodintro
      iapply (pointsTo_read_all (Pipeline.ucRefs τ sig) (fun b => (((c : Thread nD τ)).1, b)) (W22 m ρ c) s')
      isplitl [Hh] <;> iassumption)
    (hQ := fun s h c =>
      ⟨h c _ (mem_uc main_v145 (by decide)),
       (h c _ (mem_uc main_arg0 (by decide))).trans (W22_main_arg0 m ρ c),
       (h c _ (mem_uc main_arg1 (by decide))).trans (W22_main_arg1 m ρ c),
       (h c _ (mem_uc main_arg2 (by decide))).trans (W22_main_arg2 m ρ c),
       (h c _ (mem_uc main_arg3 (by decide))).trans (W22_main_arg3 m ρ c),
       (h c _ (mem_uc main_arg4 (by decide))).trans (W22_main_arg4 m ρ c),
       (h c _ (mem_uc main_arg5 (by decide))).trans (W22_main_arg5 m ρ c),
       (h c _ (mem_uc main_arg6 (by decide))).trans (W22_main_arg6 m ρ c),
       (h c _ (mem_uc main_arg7 (by decide))).trans (W22_main_arg7 m ρ c)⟩)

end Cert.KernelIdeal.RunResult

end
-- ==== Proof.LibMatmul.lean ====
/-
  A matrix product with ONE contracted axis, into the zero accumulator, read at an output index: the sum over that
  axis's coordinate k of the left operand at L k times the right operand at R k, for any functions L, R that give the
  two operand indices at each contraction position with coordinate k.
-/
import Idealize.ShloMosaic.PureOps.Ideal
import Idealize.ShloMosaic.PureOps.Ideal.Laws
import Idealize.ShloMosaic.Lib.ValueIdx

noncomputable section

namespace Cert.LibMatmul

open Idealize.ShloMosaic Idealize.ShloMosaic.ValueIdx

/-- Σ over the contraction index re-indexed by its one coordinate. -/
theorem matmul_zero_sum1 {sl sr so : Shape} {φ₁ φ₂ : FTy} (D : DotDims sl sr so) (prec : Option ContractPrecision) (n : Nat)
    (hr : D.contr.rank = 1) (hs : D.contr.size ⟨0, by omega⟩ = n)
    (lhs : FVec Ideal sl φ₁) (rhs : FVec Ideal sr φ₂) (j : so.Idx) (L : Fin n → sl.Idx) (R : Fin n → sr.Idx)
    (hl : ∀ (q : D.contr.Idx) (k : Fin n), (q ⟨0, by omega⟩ : ℕ) = k.val → D.lhsIdx j q = L k)
    (hrr : ∀ (q : D.contr.Idx) (k : Fin n), (q ⟨0, by omega⟩ : ℕ) = k.val → D.rhsIdx j q = R k) :
    FloatOps.matmul D prec lhs rhs (constant so .f32 0x00000000#32) j = ∑ k : Fin n, lhs (L k) * rhs (R k) := by
  rw [Ideal.matmul_constant_zero_apply, ← Equiv.sum_comp (contrEquiv1 D n hr hs).symm]
  refine Finset.sum_congr rfl fun k _ => ?_
  have hk := contrEquiv1_symm_val D n hr hs k
  rw [hl _ k hk, hrr _ k hk]

end Cert.LibMatmul

end
-- ==== Proof.MatmulBlock.lean ====
/-
  A block of rows times the weight matrix inside the kernels, read at an index.

  Each relation kernel casts a 4000 × 256 block of gathered rows and the 256 × 256 weight matrix to bf16 (the
  identity on exact values) and multiplies them into a zero accumulator; the self-loop kernel does the same with a
  2000 × 256 block.  At row p and column q the product is Σ_k l p k · r k q.
-/
import proofs.«162310_j29377576305387_1_alg».proof.Proof.Gen.KernelIdeal.Skeleton
import proofs.«162310_j29377576305387_1_alg».proof.Proof.LibMatmul
import Idealize.ShloMosaic.Lib.ValueIdx
import Idealize.ShloMosaic.Lib.Pipeline.Value
import Idealize.ShloMosaic.PureOps.Ideal.Laws

noncomputable section

namespace Cert.KernelIdeal.MatmulBlock

open Cert.KernelIdeal Cert.KernelIdeal.Gen
open Idealize.ShloMosaic Idealize.ShloMosaic.ValueIdx

theorem lhs4000_0 (i : S4000x256.Idx) (q : dot_S4000x256_S256x256_S4000x256_1_0_0_1_n_n.contr.Idx) : (dot_S4000x256_S256x256_S4000x256_1_0_0_1_n_n.lhsIdx i q 0).val = (i 0).val := by
  unfold DotDims.lhsIdx
  rw [dif_neg (show ¬(0 : Fin S4000x256.rank) ∈ dot_S4000x256_S256x256_S4000x256_1_0_0_1_n_n.lhsBatch by decide), dif_pos (show (0 : Fin S4000x256.rank) ∈ dot_S4000x256_S256x256_S4000x256_1_0_0_1_n_n.lhsNonContracting by decide)]
  rfl
theorem lhs4000_1 (i : S4000x256.Idx) (q : dot_S4000x256_S256x256_S4000x256_1_0_0_1_n_n.contr.Idx) : (dot_S4000x256_S256x256_S4000x256_1_0_0_1_n_n.lhsIdx i q 1).val = (q ⟨0, by decide⟩).val :=
  dot_S4000x256_S256x256_S4000x256_1_0_0_1_n_n.lhsIdx_val_of_single rfl i q
theorem rhs4000_0 (i : S4000x256.Idx) (q : dot_S4000x256_S256x256_S4000x256_1_0_0_1_n_n.contr.Idx) : (dot_S4000x256_S256x256_S4000x256_1_0_0_1_n_n.rhsIdx i q 0).val = (q ⟨0, by decide⟩).val :=
  dot_S4000x256_S256x256_S4000x256_1_0_0_1_n_n.rhsIdx_val_of_single rfl i q
theorem rhs4000_1 (i : S4000x256.Idx) (q : dot_S4000x256_S256x256_S4000x256_1_0_0_1_n_n.contr.Idx) : (dot_S4000x256_S256x256_S4000x256_1_0_0_1_n_n.rhsIdx i q 1).val = (i 1).val := by
  unfold DotDims.rhsIdx
  rw [dif_neg (show ¬(1 : Fin S256x256.rank) ∈ dot_S4000x256_S256x256_S4000x256_1_0_0_1_n_n.rhsBatch by decide), dif_pos (show (1 : Fin S256x256.rank) ∈ dot_S4000x256_S256x256_S4000x256_1_0_0_1_n_n.rhsNonContracting by decide)]
  rfl

/-- The product of a block of rows with the weight matrix, into zero, at row p and column q: Σ_k l p k · r k q. -/
theorem matmul4000_apply {φ₁ φ₂ : FTy} (l : FVec Ideal S4000x256 φ₁) (r : FVec Ideal S256x256 φ₂) (p : Fin 4000) (q : Fin 256) :
    matmul dot_S4000x256_S256x256_S4000x256_1_0_0_1_n_n none l r (constant S4000x256 .f32 0x00000000#32) (ix2 p q) = ∑ k : Fin 256, l (ix2 p k) * r (ix2 k q) :=
  Cert.LibMatmul.matmul_zero_sum1 dot_S4000x256_S256x256_S4000x256_1_0_0_1_n_n none 256 rfl rfl l r (ix2 p q) (fun k => ix2 p k) (fun k => ix2 k q)
    (fun qq k hk => funext fun a => Fin.ext (by
      match a with
      | ⟨0, _⟩ => exact lhs4000_0 _ _
      | ⟨1, _⟩ => exact (lhs4000_1 _ _).trans hk))
    (fun qq k hk => funext fun a => Fin.ext (by
      match a with
      | ⟨0, _⟩ => exact (rhs4000_0 _ _).trans hk
      | ⟨1, _⟩ => exact rhs4000_1 _ _))

theorem lhs2000_0 (i : S2000x256.Idx) (q : dot_S2000x256_S256x256_S2000x256_1_0_0_1_n_n.contr.Idx) : (dot_S2000x256_S256x256_S2000x256_1_0_0_1_n_n.lhsIdx i q 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
theorem lhs2000_1 (i : S2000x256.Idx) (q : dot_S2000x256_S256x256_S2000x256_1_0_0_1_n_n.contr.Idx) : (dot_S2000x256_S256x256_S2000x256_1_0_0_1_n_n.lhsIdx i q 1).val = (q ⟨0, by decide⟩).val :=
  dot_S2000x256_S256x256_S2000x256_1_0_0_1_n_n.lhsIdx_val_of_single rfl i q
theorem rhs2000_0 (i : S2000x256.Idx) (q : dot_S2000x256_S256x256_S2000x256_1_0_0_1_n_n.contr.Idx) : (dot_S2000x256_S256x256_S2000x256_1_0_0_1_n_n.rhsIdx i q 0).val = (q ⟨0, by decide⟩).val :=
  dot_S2000x256_S256x256_S2000x256_1_0_0_1_n_n.rhsIdx_val_of_single rfl i q
theorem rhs2000_1 (i : S2000x256.Idx) (q : dot_S2000x256_S256x256_S2000x256_1_0_0_1_n_n.contr.Idx) : (dot_S2000x256_S256x256_S2000x256_1_0_0_1_n_n.rhsIdx i q 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The product of a block of rows with the weight matrix, into zero, at row p and column q: Σ_k l p k · r k q. -/
theorem matmul2000_apply {φ₁ φ₂ : FTy} (l : FVec Ideal S2000x256 φ₁) (r : FVec Ideal S256x256 φ₂) (p : Fin 2000) (q : Fin 256) :
    matmul dot_S2000x256_S256x256_S2000x256_1_0_0_1_n_n none l r (constant S2000x256 .f32 0x00000000#32) (ix2 p q) = ∑ k : Fin 256, l (ix2 p k) * r (ix2 k q) :=
  Cert.LibMatmul.matmul_zero_sum1 dot_S2000x256_S256x256_S2000x256_1_0_0_1_n_n none 256 rfl rfl l r (ix2 p q) (fun k => ix2 p k) (fun k => ix2 k q)
    (fun qq k hk => funext fun a => Fin.ext (by
      match a with
      | ⟨0, _⟩ => exact lhs2000_0 _ _
      | ⟨1, _⟩ => exact (lhs2000_1 _ _).trans hk))
    (fun qq k hk => funext fun a => Fin.ext (by
      match a with
      | ⟨0, _⟩ => exact (rhs2000_0 _ _).trans hk
      | ⟨1, _⟩ => exact rhs2000_1 _ _))

/-- Region 0's stored value at row p and column q of its block. -/
theorem pay0_apply (x0 : Vec Ideal S4000x256 .f32) (x1 : Vec Ideal S256x256 .f32) (p : Fin 4000) (q : Fin 256) :
    k0_pay1 (F := Ideal) x0 x1 (ix2 p q) = ∑ k : Fin 256, x0 (ix2 p k) * x1 (ix2 k q) := by
  unfold k0_pay1
  refine (matmul4000_apply _ _ p q).trans ?_
  simp only [truncf_apply, shapeCast_self]

/-- Region 1's stored value at row p and column q of its block. -/
theorem pay1_apply (x0 : Vec Ideal S4000x256 .f32) (x1 : Vec Ideal S256x256 .f32) (p : Fin 4000) (q : Fin 256) :
    k1_pay1 (F := Ideal) x0 x1 (ix2 p q) = ∑ k : Fin 256, x0 (ix2 p k) * x1 (ix2 k q) := by
  unfold k1_pay1
  refine (matmul4000_apply _ _ p q).trans ?_
  simp only [truncf_apply, shapeCast_self]

/-- Region 2's stored value at row p and column q of its block. -/
theorem pay2_apply (x0 : Vec Ideal S4000x256 .f32) (x1 : Vec Ideal S256x256 .f32) (p : Fin 4000) (q : Fin 256) :
    k2_pay1 (F := Ideal) x0 x1 (ix2 p q) = ∑ k : Fin 256, x0 (ix2 p k) * x1 (ix2 k q) := by
  unfold k2_pay1
  refine (matmul4000_apply _ _ p q).trans ?_
  simp only [truncf_apply, shapeCast_self]

/-- Region 3's stored value at row p and column q of its block. -/
theorem pay3_apply (x0 : Vec Ideal S4000x256 .f32) (x1 : Vec Ideal S256x256 .f32) (p : Fin 4000) (q : Fin 256) :
    k3_pay1 (F := Ideal) x0 x1 (ix2 p q) = ∑ k : Fin 256, x0 (ix2 p k) * x1 (ix2 k q) := by
  unfold k3_pay1
  refine (matmul4000_apply _ _ p q).trans ?_
  simp only [truncf_apply, shapeCast_self]

/-- Region 4's stored value at row p and column q of its block. -/
theorem pay4_apply (x0 : Vec Ideal S4000x256 .f32) (x1 : Vec Ideal S256x256 .f32) (p : Fin 4000) (q : Fin 256) :
    k4_pay1 (F := Ideal) x0 x1 (ix2 p q) = ∑ k : Fin 256, x0 (ix2 p k) * x1 (ix2 k q) := by
  unfold k4_pay1
  refine (matmul4000_apply _ _ p q).trans ?_
  simp only [truncf_apply, shapeCast_self]

end Cert.KernelIdeal.MatmulBlock

end
-- ==== Proof.Regions.lean ====
/-
  The five relation kernels as whole-array functions.

  Each is a pipelined region over 50 grid points.  Point t loads rows 4000·t … 4000·t + 3999 of the gathered node
  features (an E × D array, E = 200000, D = 256) and the whole D × D weight matrix of the relation, multiplies them
  into zero, and writes the 4000 × D product back as rows 4000·t … of the message array.  The 50 blocks tile the
  message array, so after the region it holds, at (e, j), Σ_k src e k · W k j.
-/
import proofs.«162310_j29377576305387_1_alg».proof.Proof.Gen.KernelIdeal.Frame
import proofs.«162310_j29377576305387_1_alg».proof.Proof.MatmulBlock
import Idealize.ShloMosaic.Lib.Pipeline.Value
import Idealize.ShloMosaic.Lib.ValueIdx

set_option maxRecDepth 16384

noncomputable section

namespace Cert.KernelIdeal.Regions

open Cert.KernelIdeal Cert.KernelIdeal.Gen Cert.KernelIdeal.MatmulBlock
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Rows times a matrix: at (e, j), Σ_k A e k · B k j. -/
def rowsTimes (A : S200000x256.Idx → EReal) (B : S256x256.Idx → EReal) : S200000x256.Idx → EReal :=
  fun i => ∑ k : Fin 256, A (ix2 ⟨(i 0).val, idx2_lt0 i⟩ k) * B (ix2 k ⟨(i 1).val, idx2_lt1 i⟩)

/-! ## Relation 0's product region -/

/-- The printed index maps of region 0, decided over its 50 grid points: the row blocks move with the point, the
    weight matrix stays. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- A block of the product, entry by entry, from its two operand blocks read as rows of the whole arrays. -/
theorem block0 (A : S200000x256.Idx → EReal) (B : S256x256.Idx → EReal)
    (x0 : Vec Ideal S4000x256 .f32) (x1 : Vec Ideal S256x256 .f32) (y : S4000x256.Idx) (i : S200000x256.Idx)
    (h0 : ∀ k : Fin 256, x0 (ix2 ⟨(y 0).val, idx2_lt0 y⟩ k) = A (ix2 ⟨(i 0).val, idx2_lt0 i⟩ k))
    (h1 : ∀ k : Fin 256, x1 (ix2 k ⟨(y 1).val, idx2_lt1 y⟩) = B (ix2 k ⟨(i 1).val, idx2_lt1 i⟩)) :
    k0_pay1 (F := Ideal) x0 x1 y = rowsTimes A B i := by
  obtain ⟨p, q, rfl⟩ : ∃ (p : Fin 4000) (q : Fin 256), y = ix2 p q := ⟨y 0, y 1, eq_ix2 y⟩
  refine (pay0_apply x0 x1 p q).trans ?_
  unfold rowsTimes
  exact Finset.sum_congr rfl fun k _ => by rw [← h0 k, ← h1 k]

/-- What point t writes back is block t of the whole product. -/
theorem flushed0 (c : Dev nD) (t : Fin cfg0.N) :
    (dat0 V c).flushed 2 t = ((cfg0.win 2).blk t).view.read (Elt Ideal) (rowsTimes (V c main_v11) (V c main_v13)) := by
  show (cfg0.win 2).cut (grid0.coords t) ((dat0 V c).after 2 t) = _
  rw [after0_2]
  unfold out0_2
  rw [View.canon_unit_zero hz]
  simp only [View.ld_unit_zero (S := S4000x256) hz, View.ld_unit_zero (S := S256x256) hz]
  obtain ⟨e0, e1, e2, e3, e4, e5⟩ := idx_facts0 t
  funext j
  refine block0 (V c main_v11) (V c main_v13) (iblk0 V c 0 t) (iblk0 V c 1 t) j (((cfg0.win 2).blk t).view.emb j) (fun k => ?_) (fun k => ?_)
  · show V c main_v11 (((cfg0.win 0).blk t).view.emb (ix2 ⟨(j 0).val, idx2_lt0 j⟩ k)) = _
    refine congrArg (V c main_v11) (funext fun a => Fin.ext ?_)
    match a with
    | ⟨0, _⟩ => show win0_0.index t (0 : Fin 2) * 4000 + 1 * (j 0).val = win0_2.index t (0 : Fin 2) * 4000 + 1 * (j 0).val; omega
    | ⟨1, _⟩ => show win0_0.index t (1 : Fin 2) * 256 + 1 * k.val = k.val; omega
  · show V c main_v13 (((cfg0.win 1).blk t).view.emb (ix2 k ⟨(j 1).val, idx2_lt1 j⟩)) = _
    refine congrArg (V c main_v13) (funext fun a => Fin.ext ?_)
    match a with
    | ⟨0, _⟩ => show win0_1.index t (0 : Fin 2) * 256 + 1 * k.val = k.val; omega
    | ⟨1, _⟩ => show win0_1.index t (1 : Fin 2) * 256 + 1 * (j 1).val = win0_2.index t (1 : Fin 2) * 256 + 1 * (j 1).val; omega

/-- An index of the product array is in point t's block iff its row is among the block's 4000 rows. -/
theorem mem_blk0 (t : Fin cfg0.N) (i : S200000x256.Idx) :
    i ∈ ((cfg0.win 2).blk t).view.set ↔ ∀ a : Fin 2, win0_2.index t a * S4000x256.size a ≤ (i a).val ∧ (i a).val < win0_2.index t a * S4000x256.size a + S4000x256.size a := by
  show i ∈ ((View.whole main_v14).slice (win0_2.rect t)).set ↔ _
  rw [View.set_slice_whole, Rect.mem_set_unit]
  exact Iff.rfl

/-- The 50 row blocks tile the product array: row r lies in block r / 4000. -/
theorem cover0 (i : S200000x256.Idx) : ∃ t : Fin cfg0.N, (cfg0.win 2).flush t = true ∧ i ∈ ((cfg0.win 2).blk t).view.set := by
  have hN : cfg0.N = 50 := N_0
  have hi0 : (i 0).val < 200000 := idx2_lt0 i
  have hi1 : (i 1).val < 256 := idx2_lt1 i
  let t : Fin cfg0.N := ⟨(i 0).val / 4000, by rw [hN]; omega⟩
  obtain ⟨e0, e1, e2, e3, e4, e5⟩ := idx_facts0 t
  refine ⟨t, flush0_2 t, ?_⟩
  rw [mem_blk0]
  intro a
  have ht : t.val = (i 0).val / 4000 := rfl
  match a with
  | ⟨0, _⟩ => show win0_2.index t (0 : Fin 2) * 4000 ≤ (i 0).val ∧ (i 0).val < win0_2.index t (0 : Fin 2) * 4000 + 4000; omega
  | ⟨1, _⟩ => show win0_2.index t (1 : Fin 2) * 256 ≤ (i 1).val ∧ (i 1).val < win0_2.index t (1 : Fin 2) * 256 + 256; omega

/-- The message array after region 0: the gathered rows times the relation's weight matrix. -/
theorem final0 (c : Dev nD) : (dat0 V c).arrAt 2 cfg0.N = rowsTimes (V c main_v11) (V c main_v13) :=
  (dat0 V c).arrAt_eq_of_cover 2 (rowsTimes (V c main_v11) (V c main_v13)) (fun t _ => flushed0 V c t) (cover0)

/-! ## Relation 1's product region -/

/-- The printed index maps of region 1, decided over its 50 grid points: the row blocks move with the point, the
    weight matrix stays. -/
theorem idx_facts1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- A block of the product, entry by entry, from its two operand blocks read as rows of the whole arrays. -/
theorem block1 (A : S200000x256.Idx → EReal) (B : S256x256.Idx → EReal)
    (x0 : Vec Ideal S4000x256 .f32) (x1 : Vec Ideal S256x256 .f32) (y : S4000x256.Idx) (i : S200000x256.Idx)
    (h0 : ∀ k : Fin 256, x0 (ix2 ⟨(y 0).val, idx2_lt0 y⟩ k) = A (ix2 ⟨(i 0).val, idx2_lt0 i⟩ k))
    (h1 : ∀ k : Fin 256, x1 (ix2 k ⟨(y 1).val, idx2_lt1 y⟩) = B (ix2 k ⟨(i 1).val, idx2_lt1 i⟩)) :
    k1_pay1 (F := Ideal) x0 x1 y = rowsTimes A B i := by
  obtain ⟨p, q, rfl⟩ : ∃ (p : Fin 4000) (q : Fin 256), y = ix2 p q := ⟨y 0, y 1, eq_ix2 y⟩
  refine (pay1_apply x0 x1 p q).trans ?_
  unfold rowsTimes
  exact Finset.sum_congr rfl fun k _ => by rw [← h0 k, ← h1 k]

/-- What point t writes back is block t of the whole product. -/
theorem flushed1 (c : Dev nD) (t : Fin cfg1.N) :
    (dat1 V c).flushed 2 t = ((cfg1.win 2).blk t).view.read (Elt Ideal) (rowsTimes (V c main_v39) (V c main_v41)) := by
  show (cfg1.win 2).cut (grid1.coords t) ((dat1 V c).after 2 t) = _
  rw [after1_2]
  unfold out1_2
  rw [View.canon_unit_zero hz]
  simp only [View.ld_unit_zero (S := S4000x256) hz, View.ld_unit_zero (S := S256x256) hz]
  obtain ⟨e0, e1, e2, e3, e4, e5⟩ := idx_facts1 t
  funext j
  refine block1 (V c main_v39) (V c main_v41) (iblk1 V c 0 t) (iblk1 V c 1 t) j (((cfg1.win 2).blk t).view.emb j) (fun k => ?_) (fun k => ?_)
  · show V c main_v39 (((cfg1.win 0).blk t).view.emb (ix2 ⟨(j 0).val, idx2_lt0 j⟩ k)) = _
    refine congrArg (V c main_v39) (funext fun a => Fin.ext ?_)
    match a with
    | ⟨0, _⟩ => show win1_0.index t (0 : Fin 2) * 4000 + 1 * (j 0).val = win1_2.index t (0 : Fin 2) * 4000 + 1 * (j 0).val; omega
    | ⟨1, _⟩ => show win1_0.index t (1 : Fin 2) * 256 + 1 * k.val = k.val; omega
  · show V c main_v41 (((cfg1.win 1).blk t).view.emb (ix2 k ⟨(j 1).val, idx2_lt1 j⟩)) = _
    refine congrArg (V c main_v41) (funext fun a => Fin.ext ?_)
    match a with
    | ⟨0, _⟩ => show win1_1.index t (0 : Fin 2) * 256 + 1 * k.val = k.val; omega
    | ⟨1, _⟩ => show win1_1.index t (1 : Fin 2) * 256 + 1 * (j 1).val = win1_2.index t (1 : Fin 2) * 256 + 1 * (j 1).val; omega

/-- An index of the product array is in point t's block iff its row is among the block's 4000 rows. -/
theorem mem_blk1 (t : Fin cfg1.N) (i : S200000x256.Idx) :
    i ∈ ((cfg1.win 2).blk t).view.set ↔ ∀ a : Fin 2, win1_2.index t a * S4000x256.size a ≤ (i a).val ∧ (i a).val < win1_2.index t a * S4000x256.size a + S4000x256.size a := by
  show i ∈ ((View.whole main_v42).slice (win1_2.rect t)).set ↔ _
  rw [View.set_slice_whole, Rect.mem_set_unit]
  exact Iff.rfl

/-- The 50 row blocks tile the product array: row r lies in block r / 4000. -/
theorem cover1 (i : S200000x256.Idx) : ∃ t : Fin cfg1.N, (cfg1.win 2).flush t = true ∧ i ∈ ((cfg1.win 2).blk t).view.set := by
  have hN : cfg1.N = 50 := N_1
  have hi0 : (i 0).val < 200000 := idx2_lt0 i
  have hi1 : (i 1).val < 256 := idx2_lt1 i
  let t : Fin cfg1.N := ⟨(i 0).val / 4000, by rw [hN]; omega⟩
  obtain ⟨e0, e1, e2, e3, e4, e5⟩ := idx_facts1 t
  refine ⟨t, flush1_2 t, ?_⟩
  rw [mem_blk1]
  intro a
  have ht : t.val = (i 0).val / 4000 := rfl
  match a with
  | ⟨0, _⟩ => show win1_2.index t (0 : Fin 2) * 4000 ≤ (i 0).val ∧ (i 0).val < win1_2.index t (0 : Fin 2) * 4000 + 4000; omega
  | ⟨1, _⟩ => show win1_2.index t (1 : Fin 2) * 256 ≤ (i 1).val ∧ (i 1).val < win1_2.index t (1 : Fin 2) * 256 + 256; omega

/-- The message array after region 1: the gathered rows times the relation's weight matrix. -/
theorem final1 (c : Dev nD) : (dat1 V c).arrAt 2 cfg1.N = rowsTimes (V c main_v39) (V c main_v41) :=
  (dat1 V c).arrAt_eq_of_cover 2 (rowsTimes (V c main_v39) (V c main_v41)) (fun t _ => flushed1 V c t) (cover1)

/-! ## Relation 2's product region -/

/-- The printed index maps of region 2, decided over its 50 grid points: the row blocks move with the point, the
    weight matrix stays. -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- A block of the product, entry by entry, from its two operand blocks read as rows of the whole arrays. -/
theorem block2 (A : S200000x256.Idx → EReal) (B : S256x256.Idx → EReal)
    (x0 : Vec Ideal S4000x256 .f32) (x1 : Vec Ideal S256x256 .f32) (y : S4000x256.Idx) (i : S200000x256.Idx)
    (h0 : ∀ k : Fin 256, x0 (ix2 ⟨(y 0).val, idx2_lt0 y⟩ k) = A (ix2 ⟨(i 0).val, idx2_lt0 i⟩ k))
    (h1 : ∀ k : Fin 256, x1 (ix2 k ⟨(y 1).val, idx2_lt1 y⟩) = B (ix2 k ⟨(i 1).val, idx2_lt1 i⟩)) :
    k2_pay1 (F := Ideal) x0 x1 y = rowsTimes A B i := by
  obtain ⟨p, q, rfl⟩ : ∃ (p : Fin 4000) (q : Fin 256), y = ix2 p q := ⟨y 0, y 1, eq_ix2 y⟩
  refine (pay2_apply x0 x1 p q).trans ?_
  unfold rowsTimes
  exact Finset.sum_congr rfl fun k _ => by rw [← h0 k, ← h1 k]

/-- What point t writes back is block t of the whole product. -/
theorem flushed2 (c : Dev nD) (t : Fin cfg2.N) :
    (dat2 V c).flushed 2 t = ((cfg2.win 2).blk t).view.read (Elt Ideal) (rowsTimes (V c main_v67) (V c main_v69)) := by
  show (cfg2.win 2).cut (grid2.coords t) ((dat2 V c).after 2 t) = _
  rw [after2_2]
  unfold out2_2
  rw [View.canon_unit_zero hz]
  simp only [View.ld_unit_zero (S := S4000x256) hz, View.ld_unit_zero (S := S256x256) hz]
  obtain ⟨e0, e1, e2, e3, e4, e5⟩ := idx_facts2 t
  funext j
  refine block2 (V c main_v67) (V c main_v69) (iblk2 V c 0 t) (iblk2 V c 1 t) j (((cfg2.win 2).blk t).view.emb j) (fun k => ?_) (fun k => ?_)
  · show V c main_v67 (((cfg2.win 0).blk t).view.emb (ix2 ⟨(j 0).val, idx2_lt0 j⟩ k)) = _
    refine congrArg (V c main_v67) (funext fun a => Fin.ext ?_)
    match a with
    | ⟨0, _⟩ => show win2_0.index t (0 : Fin 2) * 4000 + 1 * (j 0).val = win2_2.index t (0 : Fin 2) * 4000 + 1 * (j 0).val; omega
    | ⟨1, _⟩ => show win2_0.index t (1 : Fin 2) * 256 + 1 * k.val = k.val; omega
  · show V c main_v69 (((cfg2.win 1).blk t).view.emb (ix2 k ⟨(j 1).val, idx2_lt1 j⟩)) = _
    refine congrArg (V c main_v69) (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_2.index t (1 : Fin 2) * 256 + 1 * (j 1).val; omega

/-- An index of the product array is in point t's block iff its row is among the block's 4000 rows. -/
theorem mem_blk2 (t : Fin cfg2.N) (i : S200000x256.Idx) :
    i ∈ ((cfg2.win 2).blk t).view.set ↔ ∀ a : Fin 2, win2_2.index t a * S4000x256.size a ≤ (i a).val ∧ (i a).val < win2_2.index t a * S4000x256.size a + S4000x256.size a := by
  show i ∈ ((View.whole main_v70).slice (win2_2.rect t)).set ↔ _
  rw [View.set_slice_whole, Rect.mem_set_unit]
  exact Iff.rfl

/-- The 50 row blocks tile the product array: row r lies in block r / 4000. -/
theorem cover2 (i : S200000x256.Idx) : ∃ t : Fin cfg2.N, (cfg2.win 2).flush t = true ∧ i ∈ ((cfg2.win 2).blk t).view.set := by
  have hN : cfg2.N = 50 := N_2
  have hi0 : (i 0).val < 200000 := idx2_lt0 i
  have hi1 : (i 1).val < 256 := idx2_lt1 i
  let t : Fin cfg2.N := ⟨(i 0).val / 4000, by rw [hN]; omega⟩
  obtain ⟨e0, e1, e2, e3, e4, e5⟩ := idx_facts2 t
  refine ⟨t, flush2_2 t, ?_⟩
  rw [mem_blk2]
  intro a
  have ht : t.val = (i 0).val / 4000 := rfl
  match a with
  | ⟨0, _⟩ => show win2_2.index t (0 : Fin 2) * 4000 ≤ (i 0).val ∧ (i 0).val < win2_2.index t (0 : Fin 2) * 4000 + 4000; omega
  | ⟨1, _⟩ => show win2_2.index t (1 : Fin 2) * 256 ≤ (i 1).val ∧ (i 1).val < win2_2.index t (1 : Fin 2) * 256 + 256; omega

/-- The message array after region 2: the gathered rows times the relation's weight matrix. -/
theorem final2 (c : Dev nD) : (dat2 V c).arrAt 2 cfg2.N = rowsTimes (V c main_v67) (V c main_v69) :=
  (dat2 V c).arrAt_eq_of_cover 2 (rowsTimes (V c main_v67) (V c main_v69)) (fun t _ => flushed2 V c t) (cover2)

/-! ## Relation 3's product region -/

/-- The printed index maps of region 3, decided over its 50 grid points: the row blocks move with the point, the
    weight matrix stays. -/
theorem idx_facts3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- A block of the product, entry by entry, from its two operand blocks read as rows of the whole arrays. -/
theorem block3 (A : S200000x256.Idx → EReal) (B : S256x256.Idx → EReal)
    (x0 : Vec Ideal S4000x256 .f32) (x1 : Vec Ideal S256x256 .f32) (y : S4000x256.Idx) (i : S200000x256.Idx)
    (h0 : ∀ k : Fin 256, x0 (ix2 ⟨(y 0).val, idx2_lt0 y⟩ k) = A (ix2 ⟨(i 0).val, idx2_lt0 i⟩ k))
    (h1 : ∀ k : Fin 256, x1 (ix2 k ⟨(y 1).val, idx2_lt1 y⟩) = B (ix2 k ⟨(i 1).val, idx2_lt1 i⟩)) :
    k3_pay1 (F := Ideal) x0 x1 y = rowsTimes A B i := by
  obtain ⟨p, q, rfl⟩ : ∃ (p : Fin 4000) (q : Fin 256), y = ix2 p q := ⟨y 0, y 1, eq_ix2 y⟩
  refine (pay3_apply x0 x1 p q).trans ?_
  unfold rowsTimes
  exact Finset.sum_congr rfl fun k _ => by rw [← h0 k, ← h1 k]

/-- What point t writes back is block t of the whole product. -/
theorem flushed3 (c : Dev nD) (t : Fin cfg3.N) :
    (dat3 V c).flushed 2 t = ((cfg3.win 2).blk t).view.read (Elt Ideal) (rowsTimes (V c main_v95) (V c main_v97)) := by
  show (cfg3.win 2).cut (grid3.coords t) ((dat3 V c).after 2 t) = _
  rw [after3_2]
  unfold out3_2
  rw [View.canon_unit_zero hz]
  simp only [View.ld_unit_zero (S := S4000x256) hz, View.ld_unit_zero (S := S256x256) hz]
  obtain ⟨e0, e1, e2, e3, e4, e5⟩ := idx_facts3 t
  funext j
  refine block3 (V c main_v95) (V c main_v97) (iblk3 V c 0 t) (iblk3 V c 1 t) j (((cfg3.win 2).blk t).view.emb j) (fun k => ?_) (fun k => ?_)
  · show V c main_v95 (((cfg3.win 0).blk t).view.emb (ix2 ⟨(j 0).val, idx2_lt0 j⟩ k)) = _
    refine congrArg (V c main_v95) (funext fun a => Fin.ext ?_)
    match a with
    | ⟨0, _⟩ => show win3_0.index t (0 : Fin 2) * 4000 + 1 * (j 0).val = win3_2.index t (0 : Fin 2) * 4000 + 1 * (j 0).val; omega
    | ⟨1, _⟩ => show win3_0.index t (1 : Fin 2) * 256 + 1 * k.val = k.val; omega
  · show V c main_v97 (((cfg3.win 1).blk t).view.emb (ix2 k ⟨(j 1).val, idx2_lt1 j⟩)) = _
    refine congrArg (V c main_v97) (funext fun a => Fin.ext ?_)
    match a with
    | ⟨0, _⟩ => show win3_1.index t (0 : Fin 2) * 256 + 1 * k.val = k.val; omega
    | ⟨1, _⟩ => show win3_1.index t (1 : Fin 2) * 256 + 1 * (j 1).val = win3_2.index t (1 : Fin 2) * 256 + 1 * (j 1).val; omega

/-- An index of the product array is in point t's block iff its row is among the block's 4000 rows. -/
theorem mem_blk3 (t : Fin cfg3.N) (i : S200000x256.Idx) :
    i ∈ ((cfg3.win 2).blk t).view.set ↔ ∀ a : Fin 2, win3_2.index t a * S4000x256.size a ≤ (i a).val ∧ (i a).val < win3_2.index t a * S4000x256.size a + S4000x256.size a := by
  show i ∈ ((View.whole main_v98).slice (win3_2.rect t)).set ↔ _
  rw [View.set_slice_whole, Rect.mem_set_unit]
  exact Iff.rfl

/-- The 50 row blocks tile the product array: row r lies in block r / 4000. -/
theorem cover3 (i : S200000x256.Idx) : ∃ t : Fin cfg3.N, (cfg3.win 2).flush t = true ∧ i ∈ ((cfg3.win 2).blk t).view.set := by
  have hN : cfg3.N = 50 := N_3
  have hi0 : (i 0).val < 200000 := idx2_lt0 i
  have hi1 : (i 1).val < 256 := idx2_lt1 i
  let t : Fin cfg3.N := ⟨(i 0).val / 4000, by rw [hN]; omega⟩
  obtain ⟨e0, e1, e2, e3, e4, e5⟩ := idx_facts3 t
  refine ⟨t, flush3_2 t, ?_⟩
  rw [mem_blk3]
  intro a
  have ht : t.val = (i 0).val / 4000 := rfl
  match a with
  | ⟨0, _⟩ => show win3_2.index t (0 : Fin 2) * 4000 ≤ (i 0).val ∧ (i 0).val < win3_2.index t (0 : Fin 2) * 4000 + 4000; omega
  | ⟨1, _⟩ => show win3_2.index t (1 : Fin 2) * 256 ≤ (i 1).val ∧ (i 1).val < win3_2.index t (1 : Fin 2) * 256 + 256; omega

/-- The message array after region 3: the gathered rows times the relation's weight matrix. -/
theorem final3 (c : Dev nD) : (dat3 V c).arrAt 2 cfg3.N = rowsTimes (V c main_v95) (V c main_v97) :=
  (dat3 V c).arrAt_eq_of_cover 2 (rowsTimes (V c main_v95) (V c main_v97)) (fun t _ => flushed3 V c t) (cover3)

/-! ## Relation 4's product region -/

/-- The printed index maps of region 4, decided over its 50 grid points: the row blocks move with the point, the
    weight matrix stays. -/
theorem idx_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- A block of the product, entry by entry, from its two operand blocks read as rows of the whole arrays. -/
theorem block4 (A : S200000x256.Idx → EReal) (B : S256x256.Idx → EReal)
    (x0 : Vec Ideal S4000x256 .f32) (x1 : Vec Ideal S256x256 .f32) (y : S4000x256.Idx) (i : S200000x256.Idx)
    (h0 : ∀ k : Fin 256, x0 (ix2 ⟨(y 0).val, idx2_lt0 y⟩ k) = A (ix2 ⟨(i 0).val, idx2_lt0 i⟩ k))
    (h1 : ∀ k : Fin 256, x1 (ix2 k ⟨(y 1).val, idx2_lt1 y⟩) = B (ix2 k ⟨(i 1).val, idx2_lt1 i⟩)) :
    k4_pay1 (F := Ideal) x0 x1 y = rowsTimes A B i := by
  obtain ⟨p, q, rfl⟩ : ∃ (p : Fin 4000) (q : Fin 256), y = ix2 p q := ⟨y 0, y 1, eq_ix2 y⟩
  refine (pay4_apply x0 x1 p q).trans ?_
  unfold rowsTimes
  exact Finset.sum_congr rfl fun k _ => by rw [← h0 k, ← h1 k]

/-- What point t writes back is block t of the whole product. -/
theorem flushed4 (c : Dev nD) (t : Fin cfg4.N) :
    (dat4 V c).flushed 2 t = ((cfg4.win 2).blk t).view.read (Elt Ideal) (rowsTimes (V c main_v123) (V c main_v125)) := by
  show (cfg4.win 2).cut (grid4.coords t) ((dat4 V c).after 2 t) = _
  rw [after4_2]
  unfold out4_2
  rw [View.canon_unit_zero hz]
  simp only [View.ld_unit_zero (S := S4000x256) hz, View.ld_unit_zero (S := S256x256) hz]
  obtain ⟨e0, e1, e2, e3, e4, e5⟩ := idx_facts4 t
  funext j
  refine block4 (V c main_v123) (V c main_v125) (iblk4 V c 0 t) (iblk4 V c 1 t) j (((cfg4.win 2).blk t).view.emb j) (fun k => ?_) (fun k => ?_)
  · show V c main_v123 (((cfg4.win 0).blk t).view.emb (ix2 ⟨(j 0).val, idx2_lt0 j⟩ k)) = _
    refine congrArg (V c main_v123) (funext fun a => Fin.ext ?_)
    match a with
    | ⟨0, _⟩ => show win4_0.index t (0 : Fin 2) * 4000 + 1 * (j 0).val = win4_2.index t (0 : Fin 2) * 4000 + 1 * (j 0).val; omega
    | ⟨1, _⟩ => show win4_0.index t (1 : Fin 2) * 256 + 1 * k.val = k.val; omega
  · show V c main_v125 (((cfg4.win 1).blk t).view.emb (ix2 k ⟨(j 1).val, idx2_lt1 j⟩)) = _
    refine congrArg (V c main_v125) (funext fun a => Fin.ext ?_)
    match a with
    | ⟨0, _⟩ => show win4_1.index t (0 : Fin 2) * 256 + 1 * k.val = k.val; omega
    | ⟨1, _⟩ => show win4_1.index t (1 : Fin 2) * 256 + 1 * (j 1).val = win4_2.index t (1 : Fin 2) * 256 + 1 * (j 1).val; omega

/-- An index of the product array is in point t's block iff its row is among the block's 4000 rows. -/
theorem mem_blk4 (t : Fin cfg4.N) (i : S200000x256.Idx) :
    i ∈ ((cfg4.win 2).blk t).view.set ↔ ∀ a : Fin 2, win4_2.index t a * S4000x256.size a ≤ (i a).val ∧ (i a).val < win4_2.index t a * S4000x256.size a + S4000x256.size a := by
  show i ∈ ((View.whole main_v126).slice (win4_2.rect t)).set ↔ _
  rw [View.set_slice_whole, Rect.mem_set_unit]
  exact Iff.rfl

/-- The 50 row blocks tile the product array: row r lies in block r / 4000. -/
theorem cover4 (i : S200000x256.Idx) : ∃ t : Fin cfg4.N, (cfg4.win 2).flush t = true ∧ i ∈ ((cfg4.win 2).blk t).view.set := by
  have hN : cfg4.N = 50 := N_4
  have hi0 : (i 0).val < 200000 := idx2_lt0 i
  have hi1 : (i 1).val < 256 := idx2_lt1 i
  let t : Fin cfg4.N := ⟨(i 0).val / 4000, by rw [hN]; omega⟩
  obtain ⟨e0, e1, e2, e3, e4, e5⟩ := idx_facts4 t
  refine ⟨t, flush4_2 t, ?_⟩
  rw [mem_blk4]
  intro a
  have ht : t.val = (i 0).val / 4000 := rfl
  match a with
  | ⟨0, _⟩ => show win4_2.index t (0 : Fin 2) * 4000 ≤ (i 0).val ∧ (i 0).val < win4_2.index t (0 : Fin 2) * 4000 + 4000; omega
  | ⟨1, _⟩ => show win4_2.index t (1 : Fin 2) * 256 ≤ (i 1).val ∧ (i 1).val < win4_2.index t (1 : Fin 2) * 256 + 256; omega

/-- The message array after region 4: the gathered rows times the relation's weight matrix. -/
theorem final4 (c : Dev nD) : (dat4 V c).arrAt 2 cfg4.N = rowsTimes (V c main_v123) (V c main_v125) :=
  (dat4 V c).arrAt_eq_of_cover 2 (rowsTimes (V c main_v123) (V c main_v125)) (fun t _ => flushed4 V c t) (cover4)

end Cert.KernelIdeal.Regions

end
-- ==== Proof.Stages.lean ====
/-
  The host operations between the regions, read against the reference's stages.

  The kernel program's @main runs the same host operations as the reference — per relation: the slices of the edge
  list, the index wrap-around and the row gather; after the product the two scatter-adds (degree and messages), the
  clip, the reciprocal and the accumulation — with a pipelined region where the reference has a matrix product.  The
  buffer contents at each segment boundary are a fold through @main; this module reads that fold at the few
  buffers that are live across a boundary and finds there the reference's own stage functions of the launch
  contents of the arguments: the gathered rows, the relation's weights, the destination indices, the message array
  (the region's product, equal to the reference's product entry by entry) and the running accumulator.
-/
import proofs.«162310_j29377576305387_1_alg».proof.Proof.Gen.KernelIdeal.Frame
import proofs.«162310_j29377576305387_1_alg».proof.Proof.Gen.ReferenceIdeal.Read
import proofs.«162310_j29377576305387_1_alg».proof.Proof.Regions
import Idealize.ShloMosaic.Lib.StableHlo.Run

set_option maxRecDepth 16384

noncomputable section

namespace Cert.KernelIdeal.Stages

open Cert.KernelIdeal Cert.KernelIdeal.Gen
open Cert.ReferenceIdeal.Read
open Idealize.ShloMosaic Idealize.ShloMosaic.TcCoe Idealize.ShloMosaic.ValueIdx Idealize.SL.Sem Idealize.ShloMosaic.StableHlo

variable (m : (ℓ : Loc nD τ sig) → Buf (Elt Ideal) ℓ) (ρ : Dev nD → PrngReg)

/-- The arguments' launch contents. -/
abbrev X0 (c : Dev nD) := m ((c : Thread nD τ).loc main_arg0)
abbrev X1 (c : Dev nD) := m ((c : Thread nD τ).loc main_arg1)
abbrev X2 (c : Dev nD) := m ((c : Thread nD τ).loc main_arg2)
abbrev X3 (c : Dev nD) := m ((c : Thread nD τ).loc main_arg3)
abbrev X4 (c : Dev nD) := m ((c : Thread nD τ).loc main_arg4)
abbrev X5 (c : Dev nD) := m ((c : Thread nD τ).loc main_arg5)
abbrev X6 (c : Dev nD) := m ((c : Thread nD τ).loc main_arg6)
abbrev X7 (c : Dev nD) := m ((c : Thread nD τ).loc main_arg7)

/-- A buffer that no operation of a stretch writes keeps its contents across the stretch. -/
local macro "keep_through " ops:ident : tactic =>
  `(tactic| (refine StableHlo.after_of_forall_not_mem _ _ (List.forall_iff_forall_mem.mp ?_)
             simp only [$ops:ident, List.Forall, StableHlo.nullary_writes, StableHlo.unary_writes, StableHlo.binary_writes,
               StableHlo.ternary_writes, StableHlo.quaternary_writes, StableHlo.reshape_writes, StableHlo.binaryIndexed_writes, Finset.mem_singleton]
             repeat' apply And.intro
             all_goals exact StableHlo.devRef_ne_of_ne (by decide)))

/-! ## The arguments at the boundaries where a stretch reads them: nothing writes them -/

theorem arg0_2 (c : Dev nD) : W2 m ρ c (Proc.devRef .tc main_arg0) = m ((c : Thread nD τ).loc main_arg0) :=
  (W2_of_ne m ρ c main_arg0 (by decide)).trans
    ((show W1 m ρ c (Proc.devRef .tc main_arg0) = W0 m ρ c (Proc.devRef .tc main_arg0) from by keep_through hostOps0).trans rfl)

theorem arg1_2 (c : Dev nD) : W2 m ρ c (Proc.devRef .tc main_arg1) = m ((c : Thread nD τ).loc main_arg1) :=
  (W2_of_ne m ρ c main_arg1 (by decide)).trans
    ((show W1 m ρ c (Proc.devRef .tc main_arg1) = W0 m ρ c (Proc.devRef .tc main_arg1) from by keep_through hostOps0).trans rfl)

theorem arg2_2 (c : Dev nD) : W2 m ρ c (Proc.devRef .tc main_arg2) = m ((c : Thread nD τ).loc main_arg2) :=
  (W2_of_ne m ρ c main_arg2 (by decide)).trans
    ((show W1 m ρ c (Proc.devRef .tc main_arg2) = W0 m ρ c (Proc.devRef .tc main_arg2) from by keep_through hostOps0).trans rfl)

theorem arg0_6 (c : Dev nD) : W6 m ρ c (Proc.devRef .tc main_arg0) = m ((c : Thread nD τ).loc main_arg0) :=
  (W6_of_ne m ρ c main_arg0 (by decide)).trans
    ((show W5 m ρ c (Proc.devRef .tc main_arg0) = W4 m ρ c (Proc.devRef .tc main_arg0) from by keep_through hostOps1_2).trans
    ((show W4 m ρ c (Proc.devRef .tc main_arg0) = W3 m ρ c (Proc.devRef .tc main_arg0) from by keep_through hostOps1_1).trans
    ((show W3 m ρ c (Proc.devRef .tc main_arg0) = W2 m ρ c (Proc.devRef .tc main_arg0) from by keep_through hostOps1).trans (arg0_2 m ρ c))))

theorem arg1_6 (c : Dev nD) : W6 m ρ c (Proc.devRef .tc main_arg1) = m ((c : Thread nD τ).loc main_arg1) :=
  (W6_of_ne m ρ c main_arg1 (by decide)).trans
    ((show W5 m ρ c (Proc.devRef .tc main_arg1) = W4 m ρ c (Proc.devRef .tc main_arg1) from by keep_through hostOps1_2).trans
    ((show W4 m ρ c (Proc.devRef .tc main_arg1) = W3 m ρ c (Proc.devRef .tc main_arg1) from by keep_through hostOps1_1).trans
    ((show W3 m ρ c (Proc.devRef .tc main_arg1) = W2 m ρ c (Proc.devRef .tc main_arg1) from by keep_through hostOps1).trans (arg1_2 m ρ c))))

theorem arg2_6 (c : Dev nD) : W6 m ρ c (Proc.devRef .tc main_arg2) = m ((c : Thread nD τ).loc main_arg2) :=
  (W6_of_ne m ρ c main_arg2 (by decide)).trans
    ((show W5 m ρ c (Proc.devRef .tc main_arg2) = W4 m ρ c (Proc.devRef .tc main_arg2) from by keep_through hostOps1_2).trans
    ((show W4 m ρ c (Proc.devRef .tc main_arg2) = W3 m ρ c (Proc.devRef .tc main_arg2) from by keep_through hostOps1_1).trans
    ((show W3 m ρ c (Proc.devRef .tc main_arg2) = W2 m ρ c (Proc.devRef .tc main_arg2) from by keep_through hostOps1).trans (arg2_2 m ρ c))))

theorem arg0_10 (c : Dev nD) : W10 m ρ c (Proc.devRef .tc main_arg0) = m ((c : Thread nD τ).loc main_arg0) :=
  (W10_of_ne m ρ c main_arg0 (by decide)).trans
    ((show W9 m ρ c (Proc.devRef .tc main_arg0) = W8 m ρ c (Proc.devRef .tc main_arg0) from by keep_through hostOps2_2).trans
    ((show W8 m ρ c (Proc.devRef .tc main_arg0) = W7 m ρ c (Proc.devRef .tc main_arg0) from by keep_through hostOps2_1).trans
    ((show W7 m ρ c (Proc.devRef .tc main_arg0) = W6 m ρ c (Proc.devRef .tc main_arg0) from by keep_through hostOps2).trans (arg0_6 m ρ c))))

theorem arg1_10 (c : Dev nD) : W10 m ρ c (Proc.devRef .tc main_arg1) = m ((c : Thread nD τ).loc main_arg1) :=
  (W10_of_ne m ρ c main_arg1 (by decide)).trans
    ((show W9 m ρ c (Proc.devRef .tc main_arg1) = W8 m ρ c (Proc.devRef .tc main_arg1) from by keep_through hostOps2_2).trans
    ((show W8 m ρ c (Proc.devRef .tc main_arg1) = W7 m ρ c (Proc.devRef .tc main_arg1) from by keep_through hostOps2_1).trans
    ((show W7 m ρ c (Proc.devRef .tc main_arg1) = W6 m ρ c (Proc.devRef .tc main_arg1) from by keep_through hostOps2).trans (arg1_6 m ρ c))))

theorem arg2_10 (c : Dev nD) : W10 m ρ c (Proc.devRef .tc main_arg2) = m ((c : Thread nD τ).loc main_arg2) :=
  (W10_of_ne m ρ c main_arg2 (by decide)).trans
    ((show W9 m ρ c (Proc.devRef .tc main_arg2) = W8 m ρ c (Proc.devRef .tc main_arg2) from by keep_through hostOps2_2).trans
    ((show W8 m ρ c (Proc.devRef .tc main_arg2) = W7 m ρ c (Proc.devRef .tc main_arg2) from by keep_through hostOps2_1).trans
    ((show W7 m ρ c (Proc.devRef .tc main_arg2) = W6 m ρ c (Proc.devRef .tc main_arg2) from by keep_through hostOps2).trans (arg2_6 m ρ c))))

theorem arg0_14 (c : Dev nD) : W14 m ρ c (Proc.devRef .tc main_arg0) = m ((c : Thread nD τ).loc main_arg0) :=
  (W14_of_ne m ρ c main_arg0 (by decide)).trans
    ((show W13 m ρ c (Proc.devRef .tc main_arg0) = W12 m ρ c (Proc.devRef .tc main_arg0) from by keep_through hostOps3_2).trans
    ((show W12 m ρ c (Proc.devRef .tc main_arg0) = W11 m ρ c (Proc.devRef .tc main_arg0) from by keep_through hostOps3_1).trans
    ((show W11 m ρ c (Proc.devRef .tc main_arg0) = W10 m ρ c (Proc.devRef .tc main_arg0) from by keep_through hostOps3).trans (arg0_10 m ρ c))))

theorem arg1_14 (c : Dev nD) : W14 m ρ c (Proc.devRef .tc main_arg1) = m ((c : Thread nD τ).loc main_arg1) :=
  (W14_of_ne m ρ c main_arg1 (by decide)).trans
    ((show W13 m ρ c (Proc.devRef .tc main_arg1) = W12 m ρ c (Proc.devRef .tc main_arg1) from by keep_through hostOps3_2).trans
    ((show W12 m ρ c (Proc.devRef .tc main_arg1) = W11 m ρ c (Proc.devRef .tc main_arg1) from by keep_through hostOps3_1).trans
    ((show W11 m ρ c (Proc.devRef .tc main_arg1) = W10 m ρ c (Proc.devRef .tc main_arg1) from by keep_through hostOps3).trans (arg1_10 m ρ c))))

theorem arg2_14 (c : Dev nD) : W14 m ρ c (Proc.devRef .tc main_arg2) = m ((c : Thread nD τ).loc main_arg2) :=
  (W14_of_ne m ρ c main_arg2 (by decide)).trans
    ((show W13 m ρ c (Proc.devRef .tc main_arg2) = W12 m ρ c (Proc.devRef .tc main_arg2) from by keep_through hostOps3_2).trans
    ((show W12 m ρ c (Proc.devRef .tc main_arg2) = W11 m ρ c (Proc.devRef .tc main_arg2) from by keep_through hostOps3_1).trans
    ((show W11 m ρ c (Proc.devRef .tc main_arg2) = W10 m ρ c (Proc.devRef .tc main_arg2) from by keep_through hostOps3).trans (arg2_10 m ρ c))))

theorem arg4_18 (c : Dev nD) : W18 m ρ c (Proc.devRef .tc main_arg4) = m ((c : Thread nD τ).loc main_arg4) :=
  ((W22_of_ne m ρ c main_arg4 (by decide)).trans
    ((show W21 m ρ c (Proc.devRef .tc main_arg4) = W20 m ρ c (Proc.devRef .tc main_arg4) from by keep_through hostOps5_2).trans
    ((show W20 m ρ c (Proc.devRef .tc main_arg4) = W19 m ρ c (Proc.devRef .tc main_arg4) from by keep_through hostOps5_1).trans
    (show W19 m ρ c (Proc.devRef .tc main_arg4) = W18 m ρ c (Proc.devRef .tc main_arg4) from by keep_through hostOps5)))).symm.trans (W22_main_arg4 m ρ c)

theorem arg5_18 (c : Dev nD) : W18 m ρ c (Proc.devRef .tc main_arg5) = m ((c : Thread nD τ).loc main_arg5) :=
  ((W22_of_ne m ρ c main_arg5 (by decide)).trans
    ((show W21 m ρ c (Proc.devRef .tc main_arg5) = W20 m ρ c (Proc.devRef .tc main_arg5) from by keep_through hostOps5_2).trans
    ((show W20 m ρ c (Proc.devRef .tc main_arg5) = W19 m ρ c (Proc.devRef .tc main_arg5) from by keep_through hostOps5_1).trans
    (show W19 m ρ c (Proc.devRef .tc main_arg5) = W18 m ρ c (Proc.devRef .tc main_arg5) from by keep_through hostOps5)))).symm.trans (W22_main_arg5 m ρ c)

theorem arg6_18 (c : Dev nD) : W18 m ρ c (Proc.devRef .tc main_arg6) = m ((c : Thread nD τ).loc main_arg6) :=
  ((W22_of_ne m ρ c main_arg6 (by decide)).trans
    ((show W21 m ρ c (Proc.devRef .tc main_arg6) = W20 m ρ c (Proc.devRef .tc main_arg6) from by keep_through hostOps5_2).trans
    ((show W20 m ρ c (Proc.devRef .tc main_arg6) = W19 m ρ c (Proc.devRef .tc main_arg6) from by keep_through hostOps5_1).trans
    (show W19 m ρ c (Proc.devRef .tc main_arg6) = W18 m ρ c (Proc.devRef .tc main_arg6) from by keep_through hostOps5)))).symm.trans (W22_main_arg6 m ρ c)

theorem arg7_18 (c : Dev nD) : W18 m ρ c (Proc.devRef .tc main_arg7) = m ((c : Thread nD τ).loc main_arg7) :=
  ((W22_of_ne m ρ c main_arg7 (by decide)).trans
    ((show W21 m ρ c (Proc.devRef .tc main_arg7) = W20 m ρ c (Proc.devRef .tc main_arg7) from by keep_through hostOps5_2).trans
    ((show W20 m ρ c (Proc.devRef .tc main_arg7) = W19 m ρ c (Proc.devRef .tc main_arg7) from by keep_through hostOps5_1).trans
    (show W19 m ρ c (Proc.devRef .tc main_arg7) = W18 m ρ c (Proc.devRef .tc main_arg7) from by keep_through hostOps5)))).symm.trans (W22_main_arg7 m ρ c)

/-- The node features as the last region finds them. -/
theorem arg0_21 (c : Dev nD) : W21 m ρ c (Proc.devRef .tc main_arg0) = m ((c : Thread nD τ).loc main_arg0) :=
  ((W22_arr m ρ c 1).trans (((dat5 (V21 m ρ) c).arrAt_in 1 rfl _).trans (A_eq5 (V21 m ρ) c 1))).symm.trans (W22_main_arg0 m ρ c)

/-- The self-loop weights as the last region finds them. -/
theorem arg3_21 (c : Dev nD) : W21 m ρ c (Proc.devRef .tc main_arg3) = m ((c : Thread nD τ).loc main_arg3) :=
  ((W22_arr m ρ c 2).trans (((dat5 (V21 m ρ) c).arrAt_in 2 rfl _).trans (A_eq5 (V21 m ρ) c 2))).symm.trans (W22_main_arg3 m ρ c)

/-! ## Relation 0: the first region's operands -/

theorem acc_1 (c : Dev nD) : W1 m ρ c (Proc.devRef .tc main_v0) = val_main_v0 (F := Ideal) := by
  show StableHlo.after hostOps0 (W0 m ρ c) (Proc.devRef .tc main_v0) = _
  after_results_simp
  rfl

theorem dst_1 (c : Dev nD) : W1 m ρ c (Proc.devRef .tc main_v4) = val_main_v4 (F := Ideal) (X1 m c) := by
  show StableHlo.after hostOps0 (W0 m ρ c) (Proc.devRef .tc main_v4) = _
  after_results_simp
  rfl

theorem src_1 (c : Dev nD) : W1 m ρ c (Proc.devRef .tc main_v11) = val_main_v11 (F := Ideal) (X0 m c) (X1 m c) := by
  show StableHlo.after hostOps0 (W0 m ρ c) (Proc.devRef .tc main_v11) = _
  after_results_simp
  rfl

theorem w_1 (c : Dev nD) : W1 m ρ c (Proc.devRef .tc main_v13) = val_main_v13 (F := Ideal) (X2 m c) := by
  show StableHlo.after hostOps0 (W0 m ρ c) (Proc.devRef .tc main_v13) = _
  after_results_simp
  rfl

/-! ## Relation 0: across its region, then its host stretches -/

/-- The accumulator and the destination indices cross region 0 untouched. -/
theorem acc_2 (c : Dev nD) : W2 m ρ c (Proc.devRef .tc main_v0) = val_main_v0 (F := Ideal) :=
  (W2_of_ne m ρ c main_v0 (by decide)).trans (acc_1 m ρ c)
theorem dst_2 (c : Dev nD) : W2 m ρ c (Proc.devRef .tc main_v4) = val_main_v4 (F := Ideal) (X1 m c) :=
  (W2_of_ne m ρ c main_v4 (by decide)).trans (dst_1 m ρ c)

/-- The message array after region 0 is the reference's product: at (e, j) both are Σ_k src e k · W k j. -/
theorem msg_2 (c : Dev nD) : W2 m ρ c (Proc.devRef .tc main_v14) = val_main_v14 (F := Ideal) (X0 m c) (X1 m c) (X2 m c) := by
  refine (W2_arr m ρ c 2).trans ?_
  refine (Cert.KernelIdeal.Regions.final0 (V1 m ρ) c).trans ?_
  show Cert.KernelIdeal.Regions.rowsTimes (W1 m ρ c (Proc.devRef .tc main_v11)) (W1 m ρ c (Proc.devRef .tc main_v13)) = _
  rw [src_1 m ρ c, w_1 m ρ c]
  funext i
  rw [val_main_v14_apply]
  unfold Cert.KernelIdeal.Regions.rowsTimes
  refine Finset.sum_congr rfl fun k _ => ?_
  congr 2 <;> exact funext fun a => Fin.ext (by match a with | ⟨0, _⟩ => rfl | ⟨1, _⟩ => rfl)

/-- The accumulator after relation 0's scatter-adds, clip, reciprocal and sum. -/
theorem acc_5 (c : Dev nD) : W5 m ρ c (Proc.devRef .tc main_v28) = val_main_v28 (F := Ideal) (X0 m c) (X1 m c) (X2 m c) := by
  show StableHlo.after hostOps1_2 (StableHlo.after hostOps1_1 (StableHlo.after hostOps1 (W2 m ρ c))) (Proc.devRef .tc main_v28) = _
  after_results_simp
  rw [acc_2 m ρ c, dst_2 m ρ c, msg_2 m ρ c]
  rfl

/-- The next relation's destination indices, gathered rows and weights. -/
theorem dst_5 (c : Dev nD) : W5 m ρ c (Proc.devRef .tc main_v32) = val_main_v32 (F := Ideal) (X1 m c) := by
  show StableHlo.after hostOps1_2 (StableHlo.after hostOps1_1 (StableHlo.after hostOps1 (W2 m ρ c))) (Proc.devRef .tc main_v32) = _
  after_results_simp
  rw [arg1_2 m ρ c]
  rfl
theorem src_5 (c : Dev nD) : W5 m ρ c (Proc.devRef .tc main_v39) = val_main_v39 (F := Ideal) (X0 m c) (X1 m c) := by
  show StableHlo.after hostOps1_2 (StableHlo.after hostOps1_1 (StableHlo.after hostOps1 (W2 m ρ c))) (Proc.devRef .tc main_v39) = _
  after_results_simp
  rw [arg0_2 m ρ c, arg1_2 m ρ c]
  rfl
theorem w_5 (c : Dev nD) : W5 m ρ c (Proc.devRef .tc main_v41) = val_main_v41 (F := Ideal) (X2 m c) := by
  show StableHlo.after hostOps1_2 (StableHlo.after hostOps1_1 (StableHlo.after hostOps1 (W2 m ρ c))) (Proc.devRef .tc main_v41) = _
  after_results_simp
  rw [arg2_2 m ρ c]
  rfl

/-! ## Relation 1: across its region, then its host stretches -/

/-- The accumulator and the destination indices cross region 1 untouched. -/
theorem acc_6 (c : Dev nD) : W6 m ρ c (Proc.devRef .tc main_v28) = val_main_v28 (F := Ideal) (X0 m c) (X1 m c) (X2 m c) :=
  (W6_of_ne m ρ c main_v28 (by decide)).trans (acc_5 m ρ c)
theorem dst_6 (c : Dev nD) : W6 m ρ c (Proc.devRef .tc main_v32) = val_main_v32 (F := Ideal) (X1 m c) :=
  (W6_of_ne m ρ c main_v32 (by decide)).trans (dst_5 m ρ c)

/-- The message array after region 1 is the reference's product: at (e, j) both are Σ_k src e k · W k j. -/
theorem msg_6 (c : Dev nD) : W6 m ρ c (Proc.devRef .tc main_v42) = val_main_v42 (F := Ideal) (X0 m c) (X1 m c) (X2 m c) := by
  refine (W6_arr m ρ c 2).trans ?_
  refine (Cert.KernelIdeal.Regions.final1 (V5 m ρ) c).trans ?_
  show Cert.KernelIdeal.Regions.rowsTimes (W5 m ρ c (Proc.devRef .tc main_v39)) (W5 m ρ c (Proc.devRef .tc main_v41)) = _
  rw [src_5 m ρ c, w_5 m ρ c]
  funext i
  rw [val_main_v42_apply]
  unfold Cert.KernelIdeal.Regions.rowsTimes
  refine Finset.sum_congr rfl fun k _ => ?_
  congr 2 <;> exact funext fun a => Fin.ext (by match a with | ⟨0, _⟩ => rfl | ⟨1, _⟩ => rfl)

/-- The accumulator after relation 1's scatter-adds, clip, reciprocal and sum. -/
theorem acc_9 (c : Dev nD) : W9 m ρ c (Proc.devRef .tc main_v56) = val_main_v56 (F := Ideal) (X0 m c) (X1 m c) (X2 m c) := by
  show StableHlo.after hostOps2_2 (StableHlo.after hostOps2_1 (StableHlo.after hostOps2 (W6 m ρ c))) (Proc.devRef .tc main_v56) = _
  after_results_simp
  rw [acc_6 m ρ c, dst_6 m ρ c, msg_6 m ρ c]
  rfl

/-- The next relation's destination indices, gathered rows and weights. -/
theorem dst_9 (c : Dev nD) : W9 m ρ c (Proc.devRef .tc main_v60) = val_main_v60 (F := Ideal) (X1 m c) := by
  show StableHlo.after hostOps2_2 (StableHlo.after hostOps2_1 (StableHlo.after hostOps2 (W6 m ρ c))) (Proc.devRef .tc main_v60) = _
  after_results_simp
  rw [arg1_6 m ρ c]
  rfl
theorem src_9 (c : Dev nD) : W9 m ρ c (Proc.devRef .tc main_v67) = val_main_v67 (F := Ideal) (X0 m c) (X1 m c) := by
  show StableHlo.after hostOps2_2 (StableHlo.after hostOps2_1 (StableHlo.after hostOps2 (W6 m ρ c))) (Proc.devRef .tc main_v67) = _
  after_results_simp
  rw [arg0_6 m ρ c, arg1_6 m ρ c]
  rfl
theorem w_9 (c : Dev nD) : W9 m ρ c (Proc.devRef .tc main_v69) = val_main_v69 (F := Ideal) (X2 m c) := by
  show StableHlo.after hostOps2_2 (StableHlo.after hostOps2_1 (StableHlo.after hostOps2 (W6 m ρ c))) (Proc.devRef .tc main_v69) = _
  after_results_simp
  rw [arg2_6 m ρ c]
  rfl

/-! ## Relation 2: across its region, then its host stretches -/

/-- The accumulator and the destination indices cross region 2 untouched. -/
theorem acc_10 (c : Dev nD) : W10 m ρ c (Proc.devRef .tc main_v56) = val_main_v56 (F := Ideal) (X0 m c) (X1 m c) (X2 m c) :=
  (W10_of_ne m ρ c main_v56 (by decide)).trans (acc_9 m ρ c)
theorem dst_10 (c : Dev nD) : W10 m ρ c (Proc.devRef .tc main_v60) = val_main_v60 (F := Ideal) (X1 m c) :=
  (W10_of_ne m ρ c main_v60 (by decide)).trans (dst_9 m ρ c)

/-- The message array after region 2 is the reference's product: at (e, j) both are Σ_k src e k · W k j. -/
theorem msg_10 (c : Dev nD) : W10 m ρ c (Proc.devRef .tc main_v70) = val_main_v70 (F := Ideal) (X0 m c) (X1 m c) (X2 m c) := by
  refine (W10_arr m ρ c 2).trans ?_
  refine (Cert.KernelIdeal.Regions.final2 (V9 m ρ) c).trans ?_
  show Cert.KernelIdeal.Regions.rowsTimes (W9 m ρ c (Proc.devRef .tc main_v67)) (W9 m ρ c (Proc.devRef .tc main_v69)) = _
  rw [src_9 m ρ c, w_9 m ρ c]
  funext i
  rw [val_main_v70_apply]
  unfold Cert.KernelIdeal.Regions.rowsTimes
  refine Finset.sum_congr rfl fun k _ => ?_
  congr 2 <;> exact funext fun a => Fin.ext (by match a with | ⟨0, _⟩ => rfl | ⟨1, _⟩ => rfl)

/-- The accumulator after relation 2's scatter-adds, clip, reciprocal and sum. -/
theorem acc_13 (c : Dev nD) : W13 m ρ c (Proc.devRef .tc main_v84) = val_main_v84 (F := Ideal) (X0 m c) (X1 m c) (X2 m c) := by
  show StableHlo.after hostOps3_2 (StableHlo.after hostOps3_1 (StableHlo.after hostOps3 (W10 m ρ c))) (Proc.devRef .tc main_v84) = _
  after_results_simp
  rw [acc_10 m ρ c, dst_10 m ρ c, msg_10 m ρ c]
  rfl

/-- The next relation's destination indices, gathered rows and weights. -/
theorem dst_13 (c : Dev nD) : W13 m ρ c (Proc.devRef .tc main_v88) = val_main_v88 (F := Ideal) (X1 m c) := by
  show StableHlo.after hostOps3_2 (StableHlo.after hostOps3_1 (StableHlo.after hostOps3 (W10 m ρ c))) (Proc.devRef .tc main_v88) = _
  after_results_simp
  rw [arg1_10 m ρ c]
  rfl
theorem src_13 (c : Dev nD) : W13 m ρ c (Proc.devRef .tc main_v95) = val_main_v95 (F := Ideal) (X0 m c) (X1 m c) := by
  show StableHlo.after hostOps3_2 (StableHlo.after hostOps3_1 (StableHlo.after hostOps3 (W10 m ρ c))) (Proc.devRef .tc main_v95) = _
  after_results_simp
  rw [arg0_10 m ρ c, arg1_10 m ρ c]
  rfl
theorem w_13 (c : Dev nD) : W13 m ρ c (Proc.devRef .tc main_v97) = val_main_v97 (F := Ideal) (X2 m c) := by
  show StableHlo.after hostOps3_2 (StableHlo.after hostOps3_1 (StableHlo.after hostOps3 (W10 m ρ c))) (Proc.devRef .tc main_v97) = _
  after_results_simp
  rw [arg2_10 m ρ c]
  rfl

/-! ## Relation 3: across its region, then its host stretches -/

/-- The accumulator and the destination indices cross region 3 untouched. -/
theorem acc_14 (c : Dev nD) : W14 m ρ c (Proc.devRef .tc main_v84) = val_main_v84 (F := Ideal) (X0 m c) (X1 m c) (X2 m c) :=
  (W14_of_ne m ρ c main_v84 (by decide)).trans (acc_13 m ρ c)
theorem dst_14 (c : Dev nD) : W14 m ρ c (Proc.devRef .tc main_v88) = val_main_v88 (F := Ideal) (X1 m c) :=
  (W14_of_ne m ρ c main_v88 (by decide)).trans (dst_13 m ρ c)

/-- The message array after region 3 is the reference's product: at (e, j) both are Σ_k src e k · W k j. -/
theorem msg_14 (c : Dev nD) : W14 m ρ c (Proc.devRef .tc main_v98) = val_main_v98 (F := Ideal) (X0 m c) (X1 m c) (X2 m c) := by
  refine (W14_arr m ρ c 2).trans ?_
  refine (Cert.KernelIdeal.Regions.final3 (V13 m ρ) c).trans ?_
  show Cert.KernelIdeal.Regions.rowsTimes (W13 m ρ c (Proc.devRef .tc main_v95)) (W13 m ρ c (Proc.devRef .tc main_v97)) = _
  rw [src_13 m ρ c, w_13 m ρ c]
  funext i
  rw [val_main_v98_apply]
  unfold Cert.KernelIdeal.Regions.rowsTimes
  refine Finset.sum_congr rfl fun k _ => ?_
  congr 2 <;> exact funext fun a => Fin.ext (by match a with | ⟨0, _⟩ => rfl | ⟨1, _⟩ => rfl)

/-- The accumulator after relation 3's scatter-adds, clip, reciprocal and sum. -/
theorem acc_17 (c : Dev nD) : W17 m ρ c (Proc.devRef .tc main_v112) = val_main_v112 (F := Ideal) (X0 m c) (X1 m c) (X2 m c) := by
  show StableHlo.after hostOps4_2 (StableHlo.after hostOps4_1 (StableHlo.after hostOps4 (W14 m ρ c))) (Proc.devRef .tc main_v112) = _
  after_results_simp
  rw [acc_14 m ρ c, dst_14 m ρ c, msg_14 m ρ c]
  rfl

/-- The next relation's destination indices, gathered rows and weights. -/
theorem dst_17 (c : Dev nD) : W17 m ρ c (Proc.devRef .tc main_v116) = val_main_v116 (F := Ideal) (X1 m c) := by
  show StableHlo.after hostOps4_2 (StableHlo.after hostOps4_1 (StableHlo.after hostOps4 (W14 m ρ c))) (Proc.devRef .tc main_v116) = _
  after_results_simp
  rw [arg1_14 m ρ c]
  rfl
theorem src_17 (c : Dev nD) : W17 m ρ c (Proc.devRef .tc main_v123) = val_main_v123 (F := Ideal) (X0 m c) (X1 m c) := by
  show StableHlo.after hostOps4_2 (StableHlo.after hostOps4_1 (StableHlo.after hostOps4 (W14 m ρ c))) (Proc.devRef .tc main_v123) = _
  after_results_simp
  rw [arg0_14 m ρ c, arg1_14 m ρ c]
  rfl
theorem w_17 (c : Dev nD) : W17 m ρ c (Proc.devRef .tc main_v125) = val_main_v125 (F := Ideal) (X2 m c) := by
  show StableHlo.after hostOps4_2 (StableHlo.after hostOps4_1 (StableHlo.after hostOps4 (W14 m ρ c))) (Proc.devRef .tc main_v125) = _
  after_results_simp
  rw [arg2_14 m ρ c]
  rfl

/-! ## Relation 4: across its region, then its host stretches -/

/-- The accumulator and the destination indices cross region 4 untouched. -/
theorem acc_18 (c : Dev nD) : W18 m ρ c (Proc.devRef .tc main_v112) = val_main_v112 (F := Ideal) (X0 m c) (X1 m c) (X2 m c) :=
  (W18_of_ne m ρ c main_v112 (by decide)).trans (acc_17 m ρ c)
theorem dst_18 (c : Dev nD) : W18 m ρ c (Proc.devRef .tc main_v116) = val_main_v116 (F := Ideal) (X1 m c) :=
  (W18_of_ne m ρ c main_v116 (by decide)).trans (dst_17 m ρ c)

/-- The message array after region 4 is the reference's product: at (e, j) both are Σ_k src e k · W k j. -/
theorem msg_18 (c : Dev nD) : W18 m ρ c (Proc.devRef .tc main_v126) = val_main_v126 (F := Ideal) (X0 m c) (X1 m c) (X2 m c) := by
  refine (W18_arr m ρ c 2).trans ?_
  refine (Cert.KernelIdeal.Regions.final4 (V17 m ρ) c).trans ?_
  show Cert.KernelIdeal.Regions.rowsTimes (W17 m ρ c (Proc.devRef .tc main_v123)) (W17 m ρ c (Proc.devRef .tc main_v125)) = _
  rw [src_17 m ρ c, w_17 m ρ c]
  funext i
  rw [val_main_v126_apply]
  unfold Cert.KernelIdeal.Regions.rowsTimes
  refine Finset.sum_congr rfl fun k _ => ?_
  congr 2 <;> exact funext fun a => Fin.ext (by match a with | ⟨0, _⟩ => rfl | ⟨1, _⟩ => rfl)

/-- The accumulator after relation 4's scatter-adds, clip, reciprocal and sum. -/
theorem acc_21 (c : Dev nD) : W21 m ρ c (Proc.devRef .tc main_v140) = val_main_v140 (F := Ideal) (X0 m c) (X1 m c) (X2 m c) := by
  show StableHlo.after hostOps5_2 (StableHlo.after hostOps5_1 (StableHlo.after hostOps5 (W18 m ρ c))) (Proc.devRef .tc main_v140) = _
  after_results_simp
  rw [acc_18 m ρ c, dst_18 m ρ c, msg_18 m ρ c]
  rfl

/-! ## The last region's row operands: the bias, scale, shift and slope reshaped -/

theorem row4_21 (c : Dev nD) : W21 m ρ c (Proc.devRef .tc main_v141) = shapeCast S1x256 (X4 m c) shapeCasts_S256_S1x256 := by
  show StableHlo.after hostOps5_2 (StableHlo.after hostOps5_1 (StableHlo.after hostOps5 (W18 m ρ c))) (Proc.devRef .tc main_v141) = _
  after_results_simp
  rw [arg4_18 m ρ c]
  rfl

theorem row5_21 (c : Dev nD) : W21 m ρ c (Proc.devRef .tc main_v142) = shapeCast S1x256 (X5 m c) shapeCasts_S256_S1x256 := by
  show StableHlo.after hostOps5_2 (StableHlo.after hostOps5_1 (StableHlo.after hostOps5 (W18 m ρ c))) (Proc.devRef .tc main_v142) = _
  after_results_simp
  rw [arg5_18 m ρ c]
  rfl

theorem row6_21 (c : Dev nD) : W21 m ρ c (Proc.devRef .tc main_v143) = shapeCast S1x256 (X6 m c) shapeCasts_S256_S1x256 := by
  show StableHlo.after hostOps5_2 (StableHlo.after hostOps5_1 (StableHlo.after hostOps5 (W18 m ρ c))) (Proc.devRef .tc main_v143) = _
  after_results_simp
  rw [arg6_18 m ρ c]
  rfl

theorem row7_21 (c : Dev nD) : W21 m ρ c (Proc.devRef .tc main_v144) = shapeCast S1x1 (X7 m c) shapeCasts_S1_S1x1 := by
  show StableHlo.after hostOps5_2 (StableHlo.after hostOps5_1 (StableHlo.after hostOps5 (W18 m ρ c))) (Proc.devRef .tc main_v144) = _
  after_results_simp
  rw [arg7_18 m ρ c]
  rfl

end Cert.KernelIdeal.Stages

end
-- ==== Proof.LibKeepdims.lean ====
/-
  The "keepdims" column forms of two layout operations, read at an index given by its coordinates.

  A length-a vector viewed as an a × 1 column reads, at (i, ·), the vector at i; an a × 1 column broadcast to
  a × b reads, at (p, c), the column at (p, 0). (The third form a row sum with keepdims meets, the column
  transposed to a 1 × a row, is the library's matrix transpose at b = 1.)
-/
import Idealize.ShloMosaic.Lib.Pipeline.Value
import Idealize.ShloMosaic.Lib.ValueIdx

noncomputable section

namespace Cert.LibKeepdims

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.Spec.lean ====
/-
  The tail of the block as mathematics, on the extended reals, coordinate by coordinate.

  Given the aggregated messages `acc` (an N × D array), the node features `x` (N × D), the self-loop weights `W`
  (D × D), the bias `b`, the LayerNorm scale `g` and shift `lb` (length D) and the PReLU slope `a` (length 1), with
  N = 100000 and D = 256:

    h r j   = ((acc r j + Σ_k x r k · W k j) + b j) + x r j        the pre-normalisation row
    mu r    = (Σ_j h r j) / 256                                     its mean
    d r j   = h r j − mu r                                          the centred row
    var r   = (Σ_j d r j · d r j) / 256                             its variance
    n r j   = d r j · rsqrt (var r + ε) · g j + lb j                the normalised row, ε the float 1e-5
    out r j = if n r j ≥ 0 then n r j else a · n r j                PReLU

  Division, the reciprocal square root and the comparison are the exact instance's; the float literals stay as their
  words (both programs carry the same words).
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

abbrev Mat (a b : Nat) := (⟨2, ![a, b]⟩ : Shape).Idx → EReal
abbrev Vec1 (a : Nat) := (⟨1, ![a]⟩ : Shape).Idx → EReal

/-- The float word of 256. -/
abbrev c256 : EReal := Ideal.ofBits .f32 0x43800000#32
/-- The float word of ε = 1e-5. -/
abbrev ceps : EReal := Ideal.ofBits .f32 0x3727C5AC#32
/-- The float word of 0. -/
abbrev czero : EReal := Ideal.ofBits .f32 0x00000000#32

variable (acc x : Mat 100000 256) (W : Mat 256 256) (b g lb : Vec1 256) (a : Vec1 1)

/-- Aggregated messages plus the self-loop product plus the bias plus the residual. -/
def h (r : Fin 100000) (j : Fin 256) : EReal :=
  ((acc (ix2 r j) + ∑ k : Fin 256, x (ix2 r k) * W (ix2 k j)) + b (ix1 j)) + x (ix2 r j)

/-- The row mean. -/
def mu (r : Fin 100000) : EReal := Ideal.div (∑ j : Fin 256, h acc x W b r j) c256

/-- The centred row. -/
def d (r : Fin 100000) (j : Fin 256) : EReal := h acc x W b r j - mu acc x W b r

/-- The row variance. -/
def var (r : Fin 100000) : EReal := Ideal.div (∑ j : Fin 256, d acc x W b r j * d acc x W b r j) c256

/-- The reciprocal standard deviation. -/
def inv (r : Fin 100000) : EReal := Ideal.rsqrt (var acc x W b r + ceps)

/-- The normalised, scaled and shifted row. -/
def n (r : Fin 100000) (j : Fin 256) : EReal := d acc x W b r j * inv acc x W b r * g (ix1 j) + lb (ix1 j)

/-- PReLU of the normalised row. -/
def out (r : Fin 100000) (j : Fin 256) : EReal :=
  Scalar.select (FloatOps.cmpf (F := Ideal) (φ := .f32) .oge (n acc x W b g lb r j) czero) (n acc x W b g lb r j)
    (a (ix1 (0 : Fin 1)) * n acc x W b g lb r j)

/-- The result array. -/
def result : Mat 100000 256 := fun i => out acc x W b g lb a ⟨(i 0).val, idx2_lt0 i⟩ ⟨(i 1).val, idx2_lt1 i⟩

theorem result_ix2 (r : Fin 100000) (j : Fin 256) : result acc x W b g lb a (ix2 r j) = out acc x W b g lb a r j := rfl

end Cert.Spec

end
-- ==== Proof.TailKernel.lean ====
/-
  The self-loop kernel's block, read entry by entry.

  At a grid point the kernel holds a 2000 × 256 block of aggregated messages and the matching block of node
  features, the 256 × 256 self-loop weights, three 1 × 256 rows (bias, scale, shift) and the 1 × 1 slope.  It adds the
  block's product with the weights, the bias row and the features, takes each row's mean (a lane sum divided by the
  float 256), centres, takes the mean of squares, multiplies by the reciprocal square root of variance plus ε,
  scales, shifts, and applies PReLU.  If the blocks are rows R p of whole arrays, the stored entry (p, q) is the
  specification's `out` at (R p, q).
-/
import proofs.«162310_j29377576305387_1_alg».proof.Proof.Gen.KernelIdeal.Skeleton
import proofs.«162310_j29377576305387_1_alg».proof.Proof.MatmulBlock
import proofs.«162310_j29377576305387_1_alg».proof.Proof.LibKeepdims
import proofs.«162310_j29377576305387_1_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.TailKernel

open Cert.KernelIdeal Cert.KernelIdeal.Gen Cert.KernelIdeal.MatmulBlock
open Idealize.ShloMosaic Idealize.ShloMosaic.ValueIdx

/-! ## The body's value, cut into named pieces -/

/-- Aggregated block + block × weights + bias row + feature block. -/
def preNorm (xx xagg : FVec Ideal S2000x256 .f32) (xW : FVec Ideal S256x256 .f32) (xb : FVec Ideal S1x256 .f32) : FVec Ideal S2000x256 .f32 :=
  addf (addf (addf (shapeCast S2000x256 xagg shapeCasts_S2000x256_S2000x256)
        (matmul dot_S2000x256_S256x256_S2000x256_1_0_0_1_n_n none (truncf .bf16 xx bitsLt_bf16_f32) (truncf .bf16 xW bitsLt_bf16_f32)
          (constant (F := Ideal) S2000x256 .f32 0x00000000#32)))
      (broadcastTo S2000x256 (shapeCast S1x256 xb shapeCasts_S1x256_S1x256) broadcasts_S1x256_S2000x256)) xx

/-- Each row's lane sum divided by the float 256, kept as a column. -/
def rowMean (v : FVec Ideal S2000x256 .f32) : FVec Ideal S2000x1 .f32 :=
  divf (shapeCast S2000x1 (multiReduction (F := Ideal) .add [1] S2000 v 0x00000000#32 reduces_S2000x256_S2000 (.inl rfl) rfl) shapeCasts_S2000_S2000x1)
    (broadcast S2000x1 (Scalar.ofBits (F := Ideal) .f32 0x43800000#32))

/-- A block minus its row means. -/
def centred (H : FVec Ideal S2000x256 .f32) : FVec Ideal S2000x256 .f32 :=
  subf H (broadcastTo S2000x256 (rowMean H) broadcasts_S2000x1_S2000x256)

/-- The reciprocal square root of the mean of squares plus ε, a column. -/
def invStd (D : FVec Ideal S2000x256 .f32) : FVec Ideal S2000x1 .f32 :=
  rsqrt (addf (rowMean (mulf D D)) (broadcast S2000x1 (Scalar.ofBits (F := Ideal) .f32 0x3727C5AC#32)))

/-- Centred block × reciprocal deviation × scale row + shift row. -/
def normed (D : FVec Ideal S2000x256 .f32) (xg xlb : FVec Ideal S1x256 .f32) : FVec Ideal S2000x256 .f32 :=
  addf (mulf (mulf D (broadcastTo S2000x256 (invStd D) broadcasts_S2000x1_S2000x256))
      (broadcastTo S2000x256 (shapeCast S1x256 xg shapeCasts_S1x256_S1x256) broadcasts_S1x256_S2000x256))
    (broadcastTo S2000x256 (shapeCast S1x256 xlb shapeCasts_S1x256_S1x256) broadcasts_S1x256_S2000x256)

/-- The body's arithmetic up to the normalised block is these pieces composed. -/
theorem pay2_eq (xx xagg : Vec Ideal S2000x256 .f32) (xW : Vec Ideal S256x256 .f32) (xb xg xlb : Vec Ideal S1x256 .f32) :
    k5_pay2 (F := Ideal) xx xagg xW xb xg xlb = normed (centred (preNorm xx xagg xW xb)) xg xlb := rfl

/-! ## The pieces at an index -/

theorem preNorm_apply (acc x : Cert.Spec.Mat 100000 256) (W : Cert.Spec.Mat 256 256) (b : Cert.Spec.Vec1 256) (R : Fin 2000 → Fin 100000)
    (xx xagg : FVec Ideal S2000x256 .f32) (xW : FVec Ideal S256x256 .f32) (xb : FVec Ideal S1x256 .f32)
    (hx : ∀ (p : Fin 2000) (q : Fin 256), xx (ix2 p q) = x (ix2 (R p) q))
    (hagg : ∀ (p : Fin 2000) (q : Fin 256), xagg (ix2 p q) = acc (ix2 (R p) q))
    (hW : ∀ (k q : Fin 256), xW (ix2 k q) = W (ix2 k q))
    (hb : ∀ q : Fin 256, xb (ix2 (0 : Fin 1) q) = b (ix1 q)) (p : Fin 2000) (q : Fin 256) :
    preNorm xx xagg xW xb (ix2 p q) = Cert.Spec.h acc x W b (R p) q := by
  unfold preNorm Cert.Spec.h
  show ((shapeCast S2000x256 xagg shapeCasts_S2000x256_S2000x256 (ix2 p q) + matmul _ none _ _ _ (ix2 p q))
      + broadcastTo S2000x256 (shapeCast S1x256 xb shapeCasts_S1x256_S1x256) broadcasts_S1x256_S2000x256 (ix2 p q)) + xx (ix2 p q) = _
  rw [shapeCast_self, matmul2000_apply, ValueIdx.broadcastTo_1b_ab_apply, shapeCast_self, hagg, hb, hx]
  simp only [truncf_apply, hx, hW]

theorem rowMean_apply (v : FVec Ideal S2000x256 .f32) (f : Fin 256 → EReal) (p : Fin 2000) (hv : ∀ j : Fin 256, v (ix2 p j) = f j) :
    rowMean v (ix2 p (0 : Fin 1)) = Ideal.div (∑ j : Fin 256, f j) Cert.Spec.c256 := by
  unfold rowMean
  show Ideal.div (shapeCast S2000x1 _ shapeCasts_S2000_S2000x1 (ix2 p (0 : Fin 1))) Cert.Spec.c256 = _
  rw [Cert.LibKeepdims.shapeCast_a_a1_apply]
  refine congrArg (Ideal.div · Cert.Spec.c256) ?_
  refine (Ideal.multiReduction_add_single v 0x00000000#32 reduces_S2000x256_S2000 (.inl rfl) rfl (ix1 p)).trans ?_
  show ∑ k : Fin 256, v (reduces_S2000x256_S2000.lift (ix1 p) k) = _
  refine Finset.sum_congr rfl fun k _ => ?_
  rw [← hv k]
  exact congrArg v (funext fun a => Fin.ext (by match a with | ⟨0, _⟩ => rfl | ⟨1, _⟩ => rfl))

theorem centred_apply (H : FVec Ideal S2000x256 .f32) (p : Fin 2000) (q : Fin 256) :
    centred H (ix2 p q) = H (ix2 p q) - rowMean H (ix2 p (0 : Fin 1)) := by
  unfold centred
  show H (ix2 p q) - broadcastTo S2000x256 (rowMean H) broadcasts_S2000x1_S2000x256 (ix2 p q) = _
  rw [Cert.LibKeepdims.broadcastTo_a1_ab_apply]

theorem invStd_apply (D : FVec Ideal S2000x256 .f32) (f : Fin 256 → EReal) (p : Fin 2000) (hD : ∀ j : Fin 256, D (ix2 p j) = f j) :
    invStd D (ix2 p (0 : Fin 1)) = Ideal.rsqrt (Ideal.div (∑ j : Fin 256, f j * f j) Cert.Spec.c256 + Cert.Spec.ceps) := by
  unfold invStd
  show Ideal.rsqrt (rowMean (mulf D D) (ix2 p (0 : Fin 1)) + Cert.Spec.ceps) = _
  rw [rowMean_apply (mulf D D) (fun j => f j * f j) p (fun j => by show D (ix2 p j) * D (ix2 p j) = _; rw [hD j])]

theorem normed_apply (D : FVec Ideal S2000x256 .f32) (xg xlb : FVec Ideal S1x256 .f32) (p : Fin 2000) (q : Fin 256) :
    normed D xg xlb (ix2 p q) = D (ix2 p q) * invStd D (ix2 p (0 : Fin 1)) * xg (ix2 (0 : Fin 1) q) + xlb (ix2 (0 : Fin 1) q) := by
  unfold normed
  show D (ix2 p q) * broadcastTo S2000x256 (invStd D) broadcasts_S2000x1_S2000x256 (ix2 p q)
      * broadcastTo S2000x256 (shapeCast S1x256 xg shapeCasts_S1x256_S1x256) broadcasts_S1x256_S2000x256 (ix2 p q)
      + broadcastTo S2000x256 (shapeCast S1x256 xlb shapeCasts_S1x256_S1x256) broadcasts_S1x256_S2000x256 (ix2 p q) = _
  rw [Cert.LibKeepdims.broadcastTo_a1_ab_apply, ValueIdx.broadcastTo_1b_ab_apply, ValueIdx.broadcastTo_1b_ab_apply, shapeCast_self, shapeCast_self]

/-! ## The stored entry -/

/-- The entry (p, q) the body stores, when its blocks are rows `R p` of whole arrays: the specification's `out`. -/
theorem stored_apply (acc x : Cert.Spec.Mat 100000 256) (W : Cert.Spec.Mat 256 256) (b g lb : Cert.Spec.Vec1 256) (a : Cert.Spec.Vec1 1)
    (R : Fin 2000 → Fin 100000)
    (xx xagg : Vec Ideal S2000x256 .f32) (xW : Vec Ideal S256x256 .f32) (xb xg xlb : Vec Ideal S1x256 .f32) (xa : Vec Ideal S1x1 .f32)
    (hx : ∀ (p : Fin 2000) (q : Fin 256), xx (ix2 p q) = x (ix2 (R p) q))
    (hagg : ∀ (p : Fin 2000) (q : Fin 256), xagg (ix2 p q) = acc (ix2 (R p) q))
    (hW : ∀ (k q : Fin 256), xW (ix2 k q) = W (ix2 k q))
    (hb : ∀ q : Fin 256, xb (ix2 (0 : Fin 1) q) = b (ix1 q))
    (hg : ∀ q : Fin 256, xg (ix2 (0 : Fin 1) q) = g (ix1 q))
    (hlb : ∀ q : Fin 256, xlb (ix2 (0 : Fin 1) q) = lb (ix1 q))
    (ha : xa (ix2 (0 : Fin 1) (0 : Fin 1)) = a (ix1 (0 : Fin 1))) (p : Fin 2000) (q : Fin 256) :
    k5_pay1 (F := Ideal) (k5_pay2 (F := Ideal) xx xagg xW xb xg xlb) (k5_pay3 (F := Ideal) xa) (ix2 p q)
      = Cert.Spec.out acc x W b g lb a (R p) q := by
  have hH : ∀ j : Fin 256, preNorm xx xagg xW xb (ix2 p j) = Cert.Spec.h acc x W b (R p) j :=
    fun j => preNorm_apply acc x W b R xx xagg xW xb hx hagg hW hb p j
  have hmu : rowMean (preNorm xx xagg xW xb) (ix2 p (0 : Fin 1)) = Cert.Spec.mu acc x W b (R p) :=
    rowMean_apply _ _ p hH
  have hD : ∀ j : Fin 256, centred (preNorm xx xagg xW xb) (ix2 p j) = Cert.Spec.d acc x W b (R p) j := fun j => by
    rw [centred_apply, hH j, hmu]; rfl
  have hinv : invStd (centred (preNorm xx xagg xW xb)) (ix2 p (0 : Fin 1)) = Cert.Spec.inv acc x W b (R p) :=
    invStd_apply _ _ p hD
  have hn : k5_pay2 (F := Ideal) xx xagg xW xb xg xlb (ix2 p q) = Cert.Spec.n acc x W b g lb (R p) q := by
    rw [pay2_eq, normed_apply, hD q, hinv, hg, hlb]; rfl
  have hk3 : k5_pay3 (F := Ideal) xa = a (ix1 (0 : Fin 1)) := by
    rw [← ha]
    exact congrArg xa (funext fun a => Fin.ext (by match a with | ⟨0, _⟩ => rfl | ⟨1, _⟩ => rfl))
  unfold k5_pay1 Cert.Spec.out
  show Scalar.select (FloatOps.cmpf (F := Ideal) (φ := .f32) .oge (k5_pay2 (F := Ideal) xx xagg xW xb xg xlb (ix2 p q)) Cert.Spec.czero)
      (k5_pay2 (F := Ideal) xx xagg xW xb xg xlb (ix2 p q)) (k5_pay3 (F := Ideal) xa * k5_pay2 (F := Ideal) xx xagg xW xb xg xlb (ix2 p q)) = _
  rw [hn, hk3]

end Cert.KernelIdeal.TailKernel

end
-- ==== Proof.Region5.lean ====
/-
  The self-loop region as a whole-array function.

  Its 50 grid points each take rows 2000·t … 2000·t + 1999 of the aggregated messages and of the node features, the
  whole weight matrix, the three rows and the slope, and write the block's 2000 × 256 result back as the same rows of
  the output.  The blocks tile the output, so after the region it holds the specification's result of the arrays as the
  region found them.
-/
import proofs.«162310_j29377576305387_1_alg».proof.Proof.Gen.KernelIdeal.Frame
import proofs.«162310_j29377576305387_1_alg».proof.Proof.TailKernel
import Idealize.ShloMosaic.Lib.Pipeline.Value
import Idealize.ShloMosaic.Lib.ValueIdx

set_option maxRecDepth 16384

noncomputable section

namespace Cert.KernelIdeal.Region5

open Cert.KernelIdeal Cert.KernelIdeal.Gen
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- A 1 × 256 row as a length-256 vector. -/
def row (v : S1x256.Idx → EReal) : Cert.Spec.Vec1 256 := fun i => v (ix2 (0 : Fin 1) ⟨(i 0).val, (i 0).isLt⟩)
/-- A 1 × 1 array as a length-1 vector. -/
def one (v : S1x1.Idx → EReal) : Cert.Spec.Vec1 1 := fun _ => v (ix2 (0 : Fin 1) (0 : Fin 1))

/-- The specification's result of the arrays the region finds. -/
def G (c : Dev nD) : S100000x256.Idx → EReal :=
  Cert.Spec.result (V c main_v140) (V c main_arg0) (V c main_arg3) (row (V c main_v141)) (row (V c main_v142)) (row (V c main_v143)) (one (V c main_v144))

/-- The printed index maps, decided over the 50 grid points: the two row-block windows and the output move with the
    point, the weights, rows and slope stay. -/
theorem idx_facts5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = 0 ∧ win5_3.index t (1 : Fin 2) = 0
    ∧ win5_4.index t (0 : Fin 2) = 0 ∧ win5_4.index t (1 : Fin 2) = 0
    ∧ win5_5.index t (0 : Fin 2) = 0 ∧ win5_5.index t (1 : Fin 2) = 0
    ∧ win5_6.index t (0 : Fin 2) = 0 ∧ win5_6.index t (1 : Fin 2) = 0
    ∧ win5_7.index t (0 : Fin 2) = t.val ∧ win5_7.index t (1 : Fin 2) = 0 :=
  (by decide +kernel : ∀ t : Fin grid5.N, _)

/-- What point t writes back is block t of the specification's result. -/
theorem flushed5 (c : Dev nD) (t : Fin cfg5.N) :
    (dat5 V c).flushed 7 t = ((cfg5.win 7).blk t).view.read (Elt Ideal) (G V c) := by
  show (cfg5.win 7).cut (grid5.coords t) ((dat5 V c).after 7 t) = _
  rw [after5_7]
  unfold out5_7
  rw [View.canon_unit_zero hz]
  simp only [View.ld_unit_zero (S := S2000x256) hz, View.ld_unit_zero (S := S256x256) hz, View.ld_unit_zero (S := S1x256) hz,
    View.ld_unit_zero (S := S1x1) hz]
  obtain ⟨a0, a1, b0, b1, c0, c1, d0, d1, f0, f1, g0, g1, h0, h1, o0, o1⟩ := idx_facts5 t
  have hN : cfg5.N = 50 := N_5
  have ht : t.val < 50 := hN ▸ t.isLt
  funext j
  obtain ⟨p, q, rfl⟩ : ∃ (p : Fin 2000) (q : Fin 256), j = ix2 p q := ⟨j 0, j 1, eq_ix2 j⟩
  let R : Fin 2000 → Fin 100000 := fun p => ⟨2000 * t.val + p.val, by have := p.isLt; omega⟩
  have hR : ∀ p : Fin 2000, (R p).val = 2000 * t.val + p.val := fun _ => rfl
  refine (Cert.KernelIdeal.TailKernel.stored_apply (V c main_v140) (V c main_arg0) (V c main_arg3) (row (V c main_v141)) (row (V c main_v142))
    (row (V c main_v143)) (one (V c main_v144)) R (iblk5 V c 1 t) (iblk5 V c 0 t) (iblk5 V c 2 t) (iblk5 V c 3 t) (iblk5 V c 4 t) (iblk5 V c 5 t)
    (iblk5 V c 6 t) ?_ ?_ ?_ ?_ ?_ ?_ ?_ p q).trans ?_

  · intro p q
    show V c main_arg0 (((cfg5.win 1).blk t).view.emb (ix2 p q)) = _
    refine congrArg (V c main_arg0) (funext fun a => Fin.ext ?_)
    match a with
    | ⟨0, _⟩ => show win5_1.index t (0 : Fin 2) * 2000 + 1 * p.val = 2000 * t.val + p.val; omega
    | ⟨1, _⟩ => show win5_1.index t (1 : Fin 2) * 256 + 1 * q.val = q.val; omega

  · intro p q
    show V c main_v140 (((cfg5.win 0).blk t).view.emb (ix2 p q)) = _
    refine congrArg (V c main_v140) (funext fun a => Fin.ext ?_)
    match a with
    | ⟨0, _⟩ => show win5_0.index t (0 : Fin 2) * 2000 + 1 * p.val = 2000 * t.val + p.val; omega
    | ⟨1, _⟩ => show win5_0.index t (1 : Fin 2) * 256 + 1 * q.val = q.val; omega
  · intro k q
    show V c main_arg3 (((cfg5.win 2).blk t).view.emb (ix2 k q)) = _
    refine congrArg (V c main_arg3) (funext fun a => Fin.ext ?_)
    match a with
    | ⟨0, _⟩ => show win5_2.index t (0 : Fin 2) * 256 + 1 * k.val = k.val; omega
    | ⟨1, _⟩ => show win5_2.index t (1 : Fin 2) * 256 + 1 * q.val = q.val; omega
  · intro q
    show V c main_v141 (((cfg5.win 3).blk t).view.emb (ix2 (0 : Fin 1) q)) = row (V c main_v141) (ix1 q)
    unfold row
    refine congrArg (V c main_v141) (funext fun a => Fin.ext ?_)
    match a with
    | ⟨0, _⟩ => show win5_3.index t (0 : Fin 2) * 1 + 1 * 0 = 0; omega
    | ⟨1, _⟩ => show win5_3.index t (1 : Fin 2) * 256 + 1 * q.val = q.val; omega
  · intro q
    show V c main_v142 (((cfg5.win 4).blk t).view.emb (ix2 (0 : Fin 1) q)) = row (V c main_v142) (ix1 q)
    unfold row
    refine congrArg (V c main_v142) (funext fun a => Fin.ext ?_)
    match a with
    | ⟨0, _⟩ => show win5_4.index t (0 : Fin 2) * 1 + 1 * 0 = 0; omega
    | ⟨1, _⟩ => show win5_4.index t (1 : Fin 2) * 256 + 1 * q.val = q.val; omega
  · intro q
    show V c main_v143 (((cfg5.win 5).blk t).view.emb (ix2 (0 : Fin 1) q)) = row (V c main_v143) (ix1 q)
    unfold row
    refine congrArg (V c main_v143) (funext fun a => Fin.ext ?_)
    match a with
    | ⟨0, _⟩ => show win5_5.index t (0 : Fin 2) * 1 + 1 * 0 = 0; omega
    | ⟨1, _⟩ => show win5_5.index t (1 : Fin 2) * 256 + 1 * q.val = q.val; omega
  · show V c main_v144 (((cfg5.win 6).blk t).view.emb (ix2 (0 : Fin 1) (0 : Fin 1))) = one (V c main_v144) (ix1 (0 : Fin 1))
    unfold one
    refine congrArg (V c main_v144) (funext fun a => Fin.ext ?_)
    match a with
    | ⟨0, _⟩ => show win5_6.index t (0 : Fin 2) * 1 + 1 * 0 = 0; omega
    | ⟨1, _⟩ => show win5_6.index t (1 : Fin 2) * 1 + 1 * 0 = 0; omega
  · show _ = G V c (((cfg5.win 7).blk t).view.emb (ix2 p q))
    unfold G Cert.Spec.result
    refine congrArg₂ (Cert.Spec.out (V c main_v140) (V c main_arg0) (V c main_arg3) (row (V c main_v141)) (row (V c main_v142)) (row (V c main_v143)) (one (V c main_v144)))
      (Fin.ext ?_) (Fin.ext ?_)
    · show 2000 * t.val + p.val = win5_7.index t (0 : Fin 2) * 2000 + 1 * p.val; omega
    · show q.val = win5_7.index t (1 : Fin 2) * 256 + 1 * q.val; omega

/-- An index of the output is in point t's block iff its row is among the block's 2000 rows. -/
theorem mem_blk5 (t : Fin cfg5.N) (i : S100000x256.Idx) :
    i ∈ ((cfg5.win 7).blk t).view.set ↔ ∀ a : Fin 2, win5_7.index t a * S2000x256.size a ≤ (i a).val ∧ (i a).val < win5_7.index t a * S2000x256.size a + S2000x256.size a := by
  show i ∈ ((View.whole main_v145).slice (win5_7.rect t)).set ↔ _
  rw [View.set_slice_whole, Rect.mem_set_unit]
  exact Iff.rfl

/-- The 50 row blocks tile the output: row r lies in block r / 2000. -/
theorem cover5 (i : S100000x256.Idx) : ∃ t : Fin cfg5.N, (cfg5.win 7).flush t = true ∧ i ∈ ((cfg5.win 7).blk t).view.set := by
  have hN : cfg5.N = 50 := N_5
  have hi0 : (i 0).val < 100000 := idx2_lt0 i
  have hi1 : (i 1).val < 256 := idx2_lt1 i
  let t : Fin cfg5.N := ⟨(i 0).val / 2000, by rw [hN]; omega⟩
  obtain ⟨a0, a1, b0, b1, c0, c1, d0, d1, f0, f1, g0, g1, h0, h1, o0, o1⟩ := idx_facts5 t
  refine ⟨t, flush5_7 t, ?_⟩
  rw [mem_blk5]
  intro a
  have ht : t.val = (i 0).val / 2000 := rfl
  match a with
  | ⟨0, _⟩ => show win5_7.index t (0 : Fin 2) * 2000 ≤ (i 0).val ∧ (i 0).val < win5_7.index t (0 : Fin 2) * 2000 + 2000; omega
  | ⟨1, _⟩ => show win5_7.index t (1 : Fin 2) * 256 ≤ (i 1).val ∧ (i 1).val < win5_7.index t (1 : Fin 2) * 256 + 256; omega

/-- The output array after the last region. -/
theorem final5 (c : Dev nD) : (dat5 V c).arrAt 7 cfg5.N = G V c :=
  (dat5 V c).arrAt_eq_of_cover 7 (G V c) (fun t _ => flushed5 V c t) (cover5)

end Cert.KernelIdeal.Region5

end
-- ==== Proof.TailRef.lean ====
/-
  The reference's tail is the specification.

  After its five relation steps the reference computes, on whole arrays, the self-loop product, the bias and residual
  sums, the two row means (a row sum divided by the float 256), the reciprocal square root, the scale and shift and
  the PReLU select.  Read one operation at a time at the coordinates (r, j), these are the functions of the
  specification applied to the reference's aggregated-message array.
-/
import proofs.«162310_j29377576305387_1_alg».proof.Proof.Gen.ReferenceIdeal.Read
import proofs.«162310_j29377576305387_1_alg».proof.Proof.Spec

noncomputable section

namespace Cert.TailRef

open Cert.ReferenceIdeal Cert.ReferenceIdeal.Read
open Idealize.ShloMosaic Idealize.ShloMosaic.ValueIdx

variable (x0 : (⟨S100000x256, .f32⟩ : BufTy).Contents (Elt Ideal)) (x1 : (⟨S5x2x200000, .i32⟩ : BufTy).Contents (Elt Ideal))
  (x2 : (⟨S5x256x256, .f32⟩ : BufTy).Contents (Elt Ideal)) (x3 : (⟨S256x256, .f32⟩ : BufTy).Contents (Elt Ideal))
  (x4 x5 x6 : (⟨S256, .f32⟩ : BufTy).Contents (Elt Ideal)) (x7 : (⟨S1, .f32⟩ : BufTy).Contents (Elt Ideal))

/-- The aggregated messages plus self-loop product, bias and residual. -/
theorem h_eq (r : Fin 100000) (j : Fin 256) :
    val_main_v146 (F := Ideal) x0 x1 x2 x3 x4 (ix2 r j) = Cert.Spec.h (val_main_v140 (F := Ideal) x0 x1 x2) x0 x3 x4 r j := by
  rw [val_main_v146_apply, val_main_v145_apply, val_main_v142_apply, val_main_v141_apply, val_main_v144_apply, val_main_v143_apply]
  have e1 : ∀ k : Fin 256, lidx_main_v141 (ix2 r j) k = ix2 r k := fun k => funext fun a => Fin.ext (by match a with | ⟨0, _⟩ => rfl | ⟨1, _⟩ => rfl)
  have e2 : ∀ k : Fin 256, ridx_main_v141 (ix2 r j) k = ix2 k j := fun k => funext fun a => Fin.ext (by match a with | ⟨0, _⟩ => rfl | ⟨1, _⟩ => rfl)
  have e3 : idx_main_v143 (idx_main_v144 (ix2 r j)) = ix1 j := funext fun a => Fin.ext (by match a with | ⟨0, _⟩ => rfl)
  simp only [e1, e2, e3]
  rfl

/-- The row sum. -/
theorem sum_eq (r : Fin 100000) :
    val_main_v147 (F := Ideal) x0 x1 x2 x3 x4 (ix1 r) = ∑ j : Fin 256, Cert.Spec.h (val_main_v140 (F := Ideal) x0 x1 x2) x0 x3 x4 r j := by
  rw [val_main_v147_apply, val_main_cst_34_apply]
  have e : ∀ k : Fin 256, idx_main_v147 (ix1 r) k = ix2 r k := fun k => funext fun a => Fin.ext (by match a with | ⟨0, _⟩ => rfl | ⟨1, _⟩ => rfl)
  simp only [e, h_eq]
  show Ideal.ofBits .f32 0x00000000#32 + _ = _
  rw [Ideal.ofBits_zero_f32, zero_add]

/-- The row mean. -/
theorem mu_eq (r : Fin 100000) :
    val_main_v150 (F := Ideal) x0 x1 x2 x3 x4 (ix2 r (0 : Fin 1)) = Cert.Spec.mu (val_main_v140 (F := Ideal) x0 x1 x2) x0 x3 x4 r := by
  rw [val_main_v150_apply, val_main_v148_apply, val_main_v149_apply, val_main_cst_35_apply]
  have e : idx_main_v148 (ix2 r (0 : Fin 1)) = ix1 r := funext fun a => Fin.ext (by match a with | ⟨0, _⟩ => rfl)
  rw [e, sum_eq]
  rfl

/-- The centred row, as the variance reads it … -/
theorem d_eq (r : Fin 100000) (j : Fin 256) :
    val_main_v152 (F := Ideal) x0 x1 x2 x3 x4 (ix2 r j) = Cert.Spec.d (val_main_v140 (F := Ideal) x0 x1 x2) x0 x3 x4 r j := by
  rw [val_main_v152_apply, val_main_v151_apply, h_eq]
  have e : idx_main_v151 (ix2 r j) = ix2 r (0 : Fin 1) := funext fun a => Fin.ext (by match a with | ⟨0, _⟩ => rfl | ⟨1, _⟩ => rfl)
  rw [e, mu_eq]
  rfl

/-- … and as the normalisation reads it (the reference subtracts the mean twice). -/
theorem d_eq' (r : Fin 100000) (j : Fin 256) :
    val_main_v159 (F := Ideal) x0 x1 x2 x3 x4 (ix2 r j) = Cert.Spec.d (val_main_v140 (F := Ideal) x0 x1 x2) x0 x3 x4 r j := by
  rw [val_main_v159_apply, val_main_v158_apply, h_eq]
  have e : idx_main_v158 (ix2 r j) = ix2 r (0 : Fin 1) := funext fun a => Fin.ext (by match a with | ⟨0, _⟩ => rfl | ⟨1, _⟩ => rfl)
  rw [e, mu_eq]
  rfl

/-- The row variance. -/
theorem var_eq (r : Fin 100000) :
    val_main_v157 (F := Ideal) x0 x1 x2 x3 x4 (ix2 r (0 : Fin 1)) = Cert.Spec.var (val_main_v140 (F := Ideal) x0 x1 x2) x0 x3 x4 r := by
  rw [val_main_v157_apply, val_main_v155_apply, val_main_v156_apply, val_main_cst_37_apply, val_main_v154_apply, val_main_cst_36_apply]
  have e : ∀ k : Fin 256, idx_main_v154 (idx_main_v155 (ix2 r (0 : Fin 1))) k = ix2 r k := fun k => funext fun a => Fin.ext (by match a with | ⟨0, _⟩ => rfl | ⟨1, _⟩ => rfl)
  simp only [e, val_main_v153_apply, d_eq]
  show Ideal.div (Ideal.ofBits .f32 0x00000000#32 + _) _ = _
  rw [Ideal.ofBits_zero_f32, zero_add]
  rfl

/-- The reciprocal standard deviation. -/
theorem inv_eq (r : Fin 100000) :
    val_main_v162 (F := Ideal) x0 x1 x2 x3 x4 (ix2 r (0 : Fin 1)) = Cert.Spec.inv (val_main_v140 (F := Ideal) x0 x1 x2) x0 x3 x4 r := by
  rw [val_main_v162_apply, val_main_v161_apply, val_main_v160_apply, val_main_cst_38_apply, var_eq]
  rfl

/-- The normalised, scaled and shifted row. -/
theorem n_eq (r : Fin 100000) (j : Fin 256) :
    val_main_v170 (F := Ideal) x0 x1 x2 x3 x4 x5 x6 (ix2 r j) = Cert.Spec.n (val_main_v140 (F := Ideal) x0 x1 x2) x0 x3 x4 x5 x6 r j := by
  rw [val_main_v170_apply, val_main_v167_apply, val_main_v164_apply, d_eq', val_main_v163_apply, val_main_v166_apply, val_main_v165_apply,
    val_main_v169_apply, val_main_v168_apply]
  have e1 : idx_main_v163 (ix2 r j) = ix2 r (0 : Fin 1) := funext fun a => Fin.ext (by match a with | ⟨0, _⟩ => rfl | ⟨1, _⟩ => rfl)
  have e2 : idx_main_v165 (idx_main_v166 (ix2 r j)) = ix1 j := funext fun a => Fin.ext (by match a with | ⟨0, _⟩ => rfl)
  have e3 : idx_main_v168 (idx_main_v169 (ix2 r j)) = ix1 j := funext fun a => Fin.ext (by match a with | ⟨0, _⟩ => rfl)
  rw [e1, e2, e3, inv_eq]
  rfl

/-- PReLU. -/
theorem out_eq (r : Fin 100000) (j : Fin 256) :
    val_main_v176 (F := Ideal) x0 x1 x2 x3 x4 x5 x6 x7 (ix2 r j) = Cert.Spec.out (val_main_v140 (F := Ideal) x0 x1 x2) x0 x3 x4 x5 x6 x7 r j := by
  rw [val_main_v176_apply, val_main_v172_apply, val_main_v175_apply, val_main_v174_apply, val_main_v173_apply, val_main_v171_apply,
    val_main_cst_39_apply, n_eq]
  have e : idx_main_v173 (idx_main_v174 (ix2 r j)) = ix1 (0 : Fin 1) := funext fun a => Fin.ext (by match a with | ⟨0, _⟩ => rfl)
  rw [e]
  rfl

/-- The reference's result array is the specification's, of its aggregated messages and the arguments. -/
theorem result_eq :
    val_main_v176 (F := Ideal) x0 x1 x2 x3 x4 x5 x6 x7 = Cert.Spec.result (val_main_v140 (F := Ideal) x0 x1 x2) x0 x3 x4 x5 x6 x7 := by
  funext i
  obtain ⟨r, j, rfl⟩ : ∃ (r : Fin 100000) (j : Fin 256), i = ix2 r j := ⟨i 0, i 1, eq_ix2 i⟩
  rw [out_eq]
  rfl

end Cert.TailRef

end
-- ==== Proof.Bridge.lean ====
/-
  The kernel program's result array is the reference's last stage of the arguments.

  The last region's output is the specification's result of the arrays that region finds; the host stretches put
  there the reference's aggregated-message stage, the node features, the self-loop weights and the reshaped rows; and
  the reference's last stage is the specification's result of the same arrays.
-/
import proofs.«162310_j29377576305387_1_alg».proof.Proof.RunResult
import proofs.«162310_j29377576305387_1_alg».proof.Proof.Stages
import proofs.«162310_j29377576305387_1_alg».proof.Proof.Region5
import proofs.«162310_j29377576305387_1_alg».proof.Proof.TailRef
import Idealize.ShloMosaic.Lib.ValueLayout

set_option maxRecDepth 16384

noncomputable section

namespace Cert.KernelIdeal.Bridge

open Cert.KernelIdeal Cert.KernelIdeal.Gen Cert.KernelIdeal.Stages
open Cert.ReferenceIdeal.Read
open Idealize.ShloMosaic Idealize.ShloMosaic.TcCoe Idealize.ShloMosaic.ValueIdx Idealize.SL.Sem

/-- A length-256 vector reshaped to a 1 × 256 row and read back as a vector is itself. -/
theorem row_reshape (x : (⟨1, ![256]⟩ : Shape).Idx → EReal) (h : (⟨1, ![256]⟩ : Shape).ShapeCasts ⟨2, ![1, 256]⟩) :
    Cert.KernelIdeal.Region5.row (shapeCast ⟨2, ![1, 256]⟩ x h) = x := by
  funext i
  unfold Cert.KernelIdeal.Region5.row
  rw [ValueIdx.shapeCast_a_1a_apply]
  exact congrArg x (eq_ix1 i).symm

/-- A length-1 vector reshaped to 1 × 1 and read back is itself. -/
theorem one_reshape (x : (⟨1, ![1]⟩ : Shape).Idx → EReal) (h : (⟨1, ![1]⟩ : Shape).ShapeCasts ⟨2, ![1, 1]⟩) :
    Cert.KernelIdeal.Region5.one (shapeCast ⟨2, ![1, 1]⟩ x h) = x := by
  funext i
  unfold Cert.KernelIdeal.Region5.one
  rw [ValueIdx.shapeCast_a_1a_apply, eq_ix1 i]
  exact congrArg x (congrArg ix1 (Subsingleton.elim _ _))

variable (m : (ℓ : Loc nD τ sig) → Buf (Elt Ideal) ℓ) (ρ : Dev nD → PrngReg)

/-- The result array the segment fold ends with is the reference's result stage of the arguments' launch contents. -/
theorem result_eq (c : Dev nD) :
    W22 m ρ c (Proc.devRef .tc main_v145)
      = val_main_v176 (F := Ideal) (X0 m c) (X1 m c) (X2 m c) (X3 m c) (X4 m c) (X5 m c) (X6 m c) (X7 m c) := by
  refine (W22_arr m ρ c 7).trans ?_
  refine (Cert.KernelIdeal.Region5.final5 (V21 m ρ) c).trans ?_
  unfold Cert.KernelIdeal.Region5.G
  show Cert.Spec.result (W21 m ρ c (Proc.devRef .tc main_v140)) (W21 m ρ c (Proc.devRef .tc main_arg0)) (W21 m ρ c (Proc.devRef .tc main_arg3))
      (Cert.KernelIdeal.Region5.row (W21 m ρ c (Proc.devRef .tc main_v141))) (Cert.KernelIdeal.Region5.row (W21 m ρ c (Proc.devRef .tc main_v142)))
      (Cert.KernelIdeal.Region5.row (W21 m ρ c (Proc.devRef .tc main_v143))) (Cert.KernelIdeal.Region5.one (W21 m ρ c (Proc.devRef .tc main_v144))) = _
  have h4 : Cert.KernelIdeal.Region5.row (W21 m ρ c (Proc.devRef .tc main_v141)) = X4 m c := by
    rw [row4_21 m ρ c]; exact row_reshape _ _
  have h5 : Cert.KernelIdeal.Region5.row (W21 m ρ c (Proc.devRef .tc main_v142)) = X5 m c := by
    rw [row5_21 m ρ c]; exact row_reshape _ _
  have h6 : Cert.KernelIdeal.Region5.row (W21 m ρ c (Proc.devRef .tc main_v143)) = X6 m c := by
    rw [row6_21 m ρ c]; exact row_reshape _ _
  have h7 : Cert.KernelIdeal.Region5.one (W21 m ρ c (Proc.devRef .tc main_v144)) = X7 m c := by
    rw [row7_21 m ρ c]; exact one_reshape _ _
  rw [h4, h5, h6, h7, acc_21 m ρ c, arg0_21 m ρ c, arg3_21 m ρ c]
  exact (Cert.TailRef.result_eq _ _ _ _ _ _ _ _).symm

end Cert.KernelIdeal.Bridge

end
-- ==== Proof.lean ====
/- The proof of `Cert.Claim`: the three frames, the (empty) idealization ledger, and the equality of the two idealized
   programs' results on the extended reals.

   Both programs compute one RGCN block: per relation, gather the source rows of the node features, multiply them by
   the relation's weights, scatter-add the messages and the degrees to the destination nodes, and accumulate the
   messages divided by the clipped degree; then add the self-loop product, the bias and the residual, LayerNorm each
   row, and apply PReLU.  The kernel program runs the six matrix-heavy steps as pipelined regions over row blocks
   (4000 edge rows, 2000 node rows); the reference runs them as whole-array host operations.  On exact values a block
   of a product is the block of the whole product and every row of the LayerNorm is computed from that row alone, so
   each region's output array is the reference's stage, and the host operations around the regions are the
   reference's own.  No law beyond re-indexing a finite sum is used, so the finiteness precondition is never opened. -/
import proofs.«162310_j29377576305387_1_alg».proof.Defs
import proofs.«162310_j29377576305387_1_alg».proof.Proof.Gen.Kernel
import proofs.«162310_j29377576305387_1_alg».proof.Proof.Gen.Kernel.Skeleton
import proofs.«162310_j29377576305387_1_alg».proof.Proof.Gen.Kernel.Launch
import proofs.«162310_j29377576305387_1_alg».proof.Proof.Gen.Kernel.Points
import proofs.«162310_j29377576305387_1_alg».proof.Proof.Gen.Kernel.Frame
import proofs.«162310_j29377576305387_1_alg».proof.Proof.Gen.KernelIdeal
import proofs.«162310_j29377576305387_1_alg».proof.Proof.Gen.KernelIdeal.Skeleton
import proofs.«162310_j29377576305387_1_alg».proof.Proof.Gen.KernelIdeal.Launch
import proofs.«162310_j29377576305387_1_alg».proof.Proof.Gen.KernelIdeal.Points
import proofs.«162310_j29377576305387_1_alg».proof.Proof.Gen.KernelIdeal.Frame
import proofs.«162310_j29377576305387_1_alg».proof.Proof.Gen.ReferenceIdeal
import proofs.«162310_j29377576305387_1_alg».proof.Proof.Gen.ReferenceIdeal.Run
import proofs.«162310_j29377576305387_1_alg».proof.Proof.Gen.ReferenceIdeal.Read
import proofs.«162310_j29377576305387_1_alg».proof.Proof.Gen.Pre_finite_inputs
import proofs.«162310_j29377576305387_1_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization pass rewrote nothing. -/
theorem preserves : Cert.preserves_Kernel_KernelIdeal := trivial

/-- From memories agreeing on the arguments both programs end with the reference's result stage of those arguments. -/
theorem algebraic : Cert.algebraic_KernelIdeal_ReferenceIdeal := by
  intro m ρ m' ρ' _ hagree
  refine ⟨fun c => Cert.ReferenceIdeal.Read.val_main_v176 (F := Ideal) (Cert.KernelIdeal.Stages.X0 m c) (Cert.KernelIdeal.Stages.X1 m c) (Cert.KernelIdeal.Stages.X2 m c) (Cert.KernelIdeal.Stages.X3 m c) (Cert.KernelIdeal.Stages.X4 m c) (Cert.KernelIdeal.Stages.X5 m c) (Cert.KernelIdeal.Stages.X6 m c) (Cert.KernelIdeal.Stages.X7 m c), ?_, ?_⟩
  · exact (θ_run Cert.KernelIdeal.defs _ _).mono
      (fun _ h c => ⟨(h c).1.trans (Cert.KernelIdeal.Bridge.result_eq m ρ c), (h c).2⟩)
      (Cert.KernelIdeal.RunResult.run_result (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v176_eq]
    obtain ⟨e0, e1, e2, e3, e4, e5, e6, e7⟩ := hagree c
    rw [e0, e1, e2, e3, e4, e5, e6, e7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
